-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S1x256 : Shape := ⟨2, ![1, 256]⟩
abbrev S256x1 : Shape := ⟨2, ![256, 1]⟩
abbrev S1x1 : Shape := ⟨2, ![1, 1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256x1 : S_.BroadcastsInDim S256x1 (![] : Fin 0 → Fin S256x1.rank)
  reducesTo_S256x1_S_d0_1 : S256x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S256x1 .f32) (main_arg8 : FVec F S1x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x256 .f32) (main_arg5 : FVec F S256x1 .f32) (main_arg6 : FVec F S1x1 .f32) (main_arg7 : FVec F S256x1 .f32) (main_arg8 : FVec F S1x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg7 main_arg8 main_v33

def fn {F : FTy → Type} [FloatOps F] (main_arg0 : FVec F S131072x256 .f32) (main_arg1 : FVec F S256x256 .f32) (main_arg2 : FVec F S1x256 .f32) (main_arg3 : FVec F S256x256 .f32) (main_arg4 : FVec F S1x256 .f32) (main_arg5 : FVec F S256x1 .f32) (main_arg6 : FVec F S1x1 .f32) (main_arg7 : FVec F S256x1 .f32) (main_arg8 : FVec F S1x1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S131072x256 : Shape := ⟨2, ![131072, 256]⟩
abbrev S256x256 : Shape := ⟨2, ![256, 256]⟩
abbrev S1x256 : Shape := ⟨2, ![1, 256]⟩
abbrev S256x1 : Shape := ⟨2, ![256, 1]⟩
abbrev S1x1 : Shape := ⟨2, ![1, 1]⟩
abbrev S256x2 : Shape := ⟨2, ![256, 2]⟩
abbrev S2x256 : Shape := ⟨2, ![2, 256]⟩
abbrev S1x2 : Shape := ⟨2, ![1, 2]⟩
abbrev S2x1 : Shape := ⟨2, ![2, 1]⟩
abbrev S1x131072 : Shape := ⟨2, ![1, 131072]⟩
abbrev S16384x256 : Shape := ⟨2, ![16384, 256]⟩
abbrev S1x16384 : Shape := ⟨2, ![1, 16384]⟩
abbrev S256x16384 : Shape := ⟨2, ![256, 16384]⟩
abbrev S2x16384 : Shape := ⟨2, ![2, 16384]⟩
abbrev S131072x1 : Shape := ⟨2, ![131072, 1]⟩

abbrev nBuf : Space → Nat
  | .hbm => 23
  | .vmem => 12
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x1, .f32⟩
  | .hbm, ⟨6, _⟩ => ⟨S1x1, .f32⟩
  | .hbm, ⟨7, _⟩ => ⟨S256x1, .f32⟩
  | .hbm, ⟨8, _⟩ => ⟨S1x1, .f32⟩
  | .hbm, ⟨9, _⟩ => ⟨S256x256, .bf16⟩
  | .hbm, ⟨10, _⟩ => ⟨S256x1, .f32⟩
  | .hbm, ⟨11, _⟩ => ⟨S256x256, .f32⟩
  | .hbm, ⟨12, _⟩ => ⟨S256x256, .bf16⟩
  | .hbm, ⟨13, _⟩ => ⟨S256x1, .f32⟩
  | .hbm, ⟨14, _⟩ => ⟨S256x2, .f32⟩
  | .hbm, ⟨15, _⟩ => ⟨S2x256, .f32⟩
  | .hbm, ⟨16, _⟩ => ⟨S2x256, .bf16⟩
  | .hbm, ⟨17, _⟩ => ⟨S1x2, .f32⟩
  | .hbm, ⟨18, _⟩ => ⟨S2x1, .f32⟩
  | .hbm, ⟨19, _⟩ => ⟨S1x131072, .f32⟩
  | .hbm, ⟨20, _⟩ => ⟨S1x131072, .f32⟩
  | .hbm, ⟨21, _⟩ => ⟨S131072x1, .f32⟩
  | .hbm, ⟨22, _⟩ => ⟨S131072x1, .f32⟩
  | .local _ .vmem, ⟨0, _⟩ => ⟨S16384x256, .f32⟩
  | .local _ .vmem, ⟨1, _⟩ => ⟨S16384x256, .f32⟩
  | .local _ .vmem, ⟨2, _⟩ => ⟨S256x256, .bf16⟩
  | .local _ .vmem, ⟨3, _⟩ => ⟨S256x1, .f32⟩
  | .local _ .vmem, ⟨4, _⟩ => ⟨S256x256, .bf16⟩
  | .local _ .vmem, ⟨5, _⟩ => ⟨S256x1, .f32⟩
  | .local _ .vmem, ⟨6, _⟩ => ⟨S2x256, .bf16⟩
  | .local _ .vmem, ⟨7, _⟩ => ⟨S2x1, .f32⟩
  | .local _ .vmem, ⟨8, _⟩ => ⟨S1x16384, .f32⟩
  | .local _ .vmem, ⟨9, _⟩ => ⟨S1x16384, .f32⟩
  | .local _ .vmem, ⟨10, _⟩ => ⟨S1x16384, .f32⟩
  | .local _ .vmem, ⟨11, _⟩ => ⟨S1x16384, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1x256_S256x1 : S1x256.ShapeCasts S256x1
  transposes_S256x256_S256x256_1_0 : S256x256.Transposes [1, 0] S256x256
  concatenates_S256x1_S256x1_S256x2_d1 : Shape.Concatenates [S256x1, S256x1] S256x2 1
  transposes_S256x2_S2x256_1_0 : S256x2.Transposes [1, 0] S2x256
  concatenates_S1x1_S1x1_S1x2_d1 : Shape.Concatenates [S1x1, S1x1] S1x2 1
  shapeCasts_S1x2_S2x1 : S1x2.ShapeCasts S2x1
  inb_S16384x256_S16384x256_0_0 : ∀ a, (![0, 0] : Fin 2 → Nat) a + S16384x256.size a ≤ S16384x256.size a
  h_S16384x256 : 0 < S16384x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x16384 : S256x1.Broadcasts S256x16384
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x16384 : S2x1.Broadcasts S2x16384
  slices_S2x16384_o0_0_S1x16384 : S2x16384.Slices ![0, 0] S1x16384
  slices_S2x16384_o1_0_S1x16384 : S2x16384.Slices ![1, 0] S1x16384
  inb_S1x16384_S1x16384_0_0 : ∀ a, (![0, 0] : Fin 2 → Nat) a + S1x16384.size a ≤ S1x16384.size a
  h_S1x16384 : 0 < S1x16384.numel
  shapeCasts_S1x131072_S131072x1 : S1x131072.ShapeCasts S131072x1
  dot_S256x256_S16384x256_S256x16384_0_1_1_0_n_n_wf : DotDims.WF S256x256 S16384x256 S256x16384 [0] [1] [1] [0] [] []
  dot_S256x256_S256x16384_S256x16384_1_0_0_1_n_n_wf : DotDims.WF S256x256 S256x16384 S256x16384 [1] [0] [0] [1] [] []
  dot_S2x256_S256x16384_S2x16384_1_0_0_1_n_n_wf : DotDims.WF S2x256 S256x16384 S2x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x256.size a ≤ S131072x256.size a
  hwx0_0 : ∀ i : grid0.Coords, EltTy.bits .f32 = 32 ∨ (Rect.block (s := S131072x256) S16384x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256.size a ≤ S2x256.size a
  hwx0_5 : ∀ i : grid0.Coords, EltTy.bits .bf16 = 32 ∨ (Rect.block (s := S2x256) S2x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16384.size a ≤ S1x131072.size a
  hwx0_7 : ∀ i : grid0.Coords, EltTy.bits .f32 = 32 ∨ (Rect.block (s := S1x131072) S1x16384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16384.size a ≤ S1x131072.size a
  hwx0_8 : ∀ i : grid0.Coords, EltTy.bits .f32 = 32 ∨ (Rect.block (s := S1x131072) S1x16384.size (cc0_transform_8 i) (hinb0_8 i)).WholeWords (EltTy.packing .f32)

variable [Facts₀]

def dot_S256x256_S16384x256_S256x16384_0_1_1_0_n_n : DotDims S256x256 S16384x256 S256x16384 where
  lhsContracting := [0]
  rhsContracting := [1]
  lhsNonContracting := [1]
  rhsNonContracting := [0]
  lhsBatch := []
  rhsBatch := []
  wf := dot_S256x256_S16384x256_S256x16384_0_1_1_0_n_n_wf
def dot_S256x256_S256x16384_S256x16384_1_0_0_1_n_n : DotDims S256x256 S256x16384 S256x16384 where
  lhsContracting := [1]
  rhsContracting := [0]
  lhsNonContracting := [0]
  rhsNonContracting := [1]
  lhsBatch := []
  rhsBatch := []
  wf := dot_S256x256_S256x16384_S256x16384_1_0_0_1_n_n_wf
def dot_S2x256_S256x16384_S2x16384_1_0_0_1_n_n : DotDims S2x256 S256x16384 S2x16384 where
  lhsContracting := [1]
  rhsContracting := [0]
  lhsNonContracting := [0]
  rhsNonContracting := [1]
  lhsBatch := []
  rhsBatch := []
  wf := dot_S2x256_S256x16384_S2x16384_1_0_0_1_n_n_wf

abbrev win0_0 : Pipeline.Window sig grid0 :=
  Pipeline.Window.ofSpec (Memref.whole main_arg0) S16384x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x16384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S1x256 : Shape := ⟨2, ![1, 256]⟩
abbrev S256x1 : Shape := ⟨2, ![256, 1]⟩
abbrev S1x1 : Shape := ⟨2, ![1, 1]⟩
abbrev S256x131072 : Shape := ⟨2, ![256, 131072]⟩
abbrev S256x2 : Shape := ⟨2, ![256, 2]⟩
abbrev S2x256 : Shape := ⟨2, ![2, 256]⟩
abbrev S1x2 : Shape := ⟨2, ![1, 2]⟩
abbrev S2x1 : Shape := ⟨2, ![2, 1]⟩
abbrev S2x131072 : Shape := ⟨2, ![2, 131072]⟩
abbrev S256x4096 : Shape := ⟨2, ![256, 4096]⟩
abbrev S2x4096 : Shape := ⟨2, ![2, 4096]⟩
abbrev S1x131072 : Shape := ⟨2, ![1, 131072]⟩
abbrev S131072 : Shape := ⟨1, ![131072]⟩
abbrev S131072x1 : Shape := ⟨2, ![131072, 1]⟩

abbrev nBuf : Space → Nat
  | .hbm => 25
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x1, .f32⟩
  | .hbm, ⟨6, _⟩ => ⟨S1x1, .f32⟩
  | .hbm, ⟨7, _⟩ => ⟨S256x1, .f32⟩
  | .hbm, ⟨8, _⟩ => ⟨S1x1, .f32⟩
  | .hbm, ⟨9, _⟩ => ⟨S256x131072, .f32⟩
  | .hbm, ⟨10, _⟩ => ⟨S256x256, .f32⟩
  | .hbm, ⟨11, _⟩ => ⟨S256x1, .f32⟩
  | .hbm, ⟨12, _⟩ => ⟨S256x256, .f32⟩
  | .hbm, ⟨13, _⟩ => ⟨S256x1, .f32⟩
  | .hbm, ⟨14, _⟩ => ⟨S256x2, .f32⟩
  | .hbm, ⟨15, _⟩ => ⟨S2x256, .f32⟩
  | .hbm, ⟨16, _⟩ => ⟨S1x2, .f32⟩
  | .hbm, ⟨17, _⟩ => ⟨S2x1, .f32⟩
  | .hbm, ⟨18, _⟩ => ⟨S2x131072, .f32⟩
  | .hbm, ⟨19, _⟩ => ⟨S1x131072, .f32⟩
  | .hbm, ⟨20, _⟩ => ⟨S131072, .f32⟩
  | .hbm, ⟨21, _⟩ => ⟨S131072x1, .f32⟩
  | .hbm, ⟨22, _⟩ => ⟨S1x131072, .f32⟩
  | .hbm, ⟨23, _⟩ => ⟨S131072, .f32⟩
  | .hbm, ⟨24, _⟩ => ⟨S131072x1, .f32⟩
  | .local _ .vmem, ⟨0, _⟩ => ⟨S256x4096, .f32⟩
  | .local _ .vmem, ⟨1, _⟩ => ⟨S256x4096, .f32⟩
  | .local _ .vmem, ⟨2, _⟩ => ⟨S256x256, .f32⟩
  | .local _ .vmem, ⟨3, _⟩ => ⟨S256x1, .f32⟩
  | .local _ .vmem, ⟨4, _⟩ => ⟨S256x256, .f32⟩
  | .local _ .vmem, ⟨5, _⟩ => ⟨S256x1, .f32⟩
  | .local _ .vmem, ⟨6, _⟩ => ⟨S2x256, .f32⟩
  | .local _ .vmem, ⟨7, _⟩ => ⟨S2x1, .f32⟩
  | .local _ .vmem, ⟨8, _⟩ => ⟨S2x4096, .f32⟩
  | .local _ .vmem, ⟨9, _⟩ => ⟨S2x4096, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S131072x256_S256x131072_1_0 : S131072x256.Transposes [1, 0] S256x131072
  transposes_S256x256_S256x256_1_0 : S256x256.Transposes [1, 0] S256x256
  shapeCasts_S1x256_S256x1 : S1x256.ShapeCasts S256x1
  concatenates_S256x1_S256x1_S256x2_d1 : Shape.Concatenates [S256x1, S256x1] S256x2 1
  transposes_S256x2_S2x256_1_0 : S256x2.Transposes [1, 0] S2x256
  concatenates_S1x1_S1x1_S1x2_d1 : Shape.Concatenates [S1x1, S1x1] S1x2 1
  shapeCasts_S1x2_S2x1 : S1x2.ShapeCasts S2x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x4096 : S2x1.Broadcasts S2x4096
  iota_S2x4096_d0_w32 : S2x4096.Iotas .tc 32 [0]
  inb_S2x4096_S2x4096_0_0 : ∀ a, (![0, 0] : Fin 2 → Nat) a + S2x4096.size a ≤ S2x4096.size a
  h_S2x4096 : 0 < S2x4096.numel
  slices_S2x131072_S1x131072_0_0 : S2x131072.Slices ![0, 0] S1x131072
  shapeCasts_S1x131072_S131072 : S1x131072.ShapeCasts S131072
  shapeCasts_S131072_S131072x1 : S131072.ShapeCasts S131072x1
  slices_S2x131072_S1x131072_1_0 : S2x131072.Slices ![1, 0] S1x131072
  dot_S256x256_S256x4096_S256x4096_1_0_0_1_n_n_wf : DotDims.WF S256x256 S256x4096 S256x4096 [1] [0] [0] [1] [] []
  dot_S2x256_S256x4096_S2x4096_1_0_0_1_n_n_wf : DotDims.WF S2x256 S256x4096 S2x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x131072.size a
  hwx0_0 : ∀ i : grid0.Coords, EltTy.bits .f32 = 32 ∨ (Rect.block (s := S256x131072) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256.size a ≤ S2x256.size a
  hwx0_5 : ∀ i : grid0.Coords, EltTy.bits .f32 = 32 ∨ (Rect.block (s := S2x256) S2x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096.size a ≤ S2x131072.size a
  hwx0_7 : ∀ i : grid0.Coords, EltTy.bits .f32 = 32 ∨ (Rect.block (s := S2x131072) S2x4096.size (cc0_transform_7 i) (hinb0_7 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S2x256_S256x4096_S2x4096_1_0_0_1_n_n : DotDims S2x256 S256x4096 S2x4096 where
  lhsContracting := [1]
  rhsContracting := [0]
  lhsNonContracting := [0]
  rhsNonContracting := [1]
  lhsBatch := []
  rhsBatch := []
  wf := dot_S2x256_S256x4096_S2x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  The mathematics both programs compute, with no program in sight.

  A two-layer perceptron with two scalar heads, applied to every row of a batch.  For one input
  row `xc` (256 features) the hidden layers are
      h1 k' = max (∑ s, W1 k' s * xc s + B1 k') 0
      h2 k  = max (∑ k', W2 k k' * h1 k' + B2 k) 0
  and a head with weights `WH` and bias `BH` has the logit  z = ∑ k, WH k * h2 k + BH.
  The mean head returns  2 * tanh z,  the deviation head the softplus in its stable form
      max z 0 + log (1 + exp (0 - |z|)) + 1e-5.
  Everything is read on the extended reals, where a change of float format is the identity and a
  matrix product is a plain finite sum; the three float constants stay the binary words both
  programs print, so they are never evaluated.
-/
import Idealize.ShloMosaic.PureOps.Ideal
import Idealize.ShloMosaic.Lib.ValueIdx

noncomputable section

namespace Cert.PolicyNet

open Idealize.ShloMosaic Idealize.ShloMosaic.ValueIdx

/-- A matrix of extended reals, indexed by (row, column). -/
abbrev Mat (a b : Nat) : Type := (⟨2, ![a, b]⟩ : Shape).Idx → EReal

/-- The three float constants of both programs, as the words they print: 0, 2 and 1e-5 in f32. -/
abbrev zeroF : EReal := Scalar.ofBits (F := Ideal) .f32 0x00000000#32
abbrev twoF : EReal := Scalar.ofBits (F := Ideal) .f32 0x40000000#32
abbrev epsF : EReal := Scalar.ofBits (F := Ideal) .f32 0x3727C5AC#32

/-- The rectifier. -/
def relu (v : EReal) : EReal := max v zeroF

/-- One head's logit for one input row `xc`: two rectified affine layers and an affine read-out.
    `W1 k' s` weighs feature `s` into hidden unit `k'`, `W2 k k'` hidden unit `k'` into unit `k` of
    the second layer, `WH k` that unit into the head. -/
def net (W1 : Fin 256 → Fin 256 → EReal) (B1 : Fin 256 → EReal) (W2 : Fin 256 → Fin 256 → EReal)
    (B2 : Fin 256 → EReal) (WH : Fin 256 → EReal) (BH : EReal) (xc : Fin 256 → EReal) : EReal :=
  (∑ k : Fin 256, WH k * relu ((∑ k' : Fin 256, W2 k k' * relu ((∑ s : Fin 256, W1 k' s * xc s) + B1 k')) + B2 k)) + BH

/-- The mean head's squashing: twice the hyperbolic tangent of the logit. -/
def muOf (z : EReal) : EReal := Ideal.tanh z * twoF

/-- The deviation head's softplus, in the overflow-free form max z 0 + log1p (exp (0 - |z|)), plus
    the floor 1e-5. -/
def sigmaOf (z : EReal) : EReal := (max z zeroF + Ideal.log1p (Ideal.exp (zeroF - max z (-z)))) + epsF

/-- The logit of a head (weights `wo`, a column; bias `bo`) on row `b` of the batch `x`, from the
    argument arrays as the caller passes them: `w1` and `w2` are stored (input, output), the biases
    as one row. -/
def logit (x : Mat 131072 256) (w1 : Mat 256 256) (b1 : Mat 1 256) (w2 : Mat 256 256) (b2 : Mat 1 256)
    (wo : Mat 256 1) (bo : Mat 1 1) (b : Fin 131072) : EReal :=
  net (fun k' s => w1 (ix2 s k')) (fun k' => b1 (ix2 0 k')) (fun k k' => w2 (ix2 k' k)) (fun k => b2 (ix2 0 k))
    (fun k => wo (ix2 k 0)) (bo (ix2 0 0)) (fun s => x (ix2 b s))

/-- The first result: the mean, one entry per row of the batch. -/
def mu (x : Mat 131072 256) (w1 : Mat 256 256) (b1 : Mat 1 256) (w2 : Mat 256 256) (b2 : Mat 1 256)
    (wmu : Mat 256 1) (bmu : Mat 1 1) : Mat 131072 1 :=
  fun i => muOf (logit x w1 b1 w2 b2 wmu bmu (i 0))

/-- The second result: the deviation, one entry per row of the batch. -/
def sigma (x : Mat 131072 256) (w1 : Mat 256 256) (b1 : Mat 1 256) (w2 : Mat 256 256) (b2 : Mat 1 256)
    (wsig : Mat 256 1) (bsig : Mat 1 1) : Mat 131072 1 :=
  fun i => sigmaOf (logit x w1 b1 w2 b2 wsig bsig (i 0))

end Cert.PolicyNet

end
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.KPayload.lean ====
/-
  What the kernel's body computes on one block of the batch, entry by entry.

  A block is 16384 consecutive rows of the batch.  The body holds the block `x0` as rows × features,
  the first-layer weights `x1` as features × units, the second-layer weights `x3` and the two heads'
  weights `x5` already transposed (units × inputs, heads × units), and the biases `x2`, `x4`, `x6` as
  columns.  It forms the hidden activations with the batch on the last axis — unit × row — so
  entry (k', j) of the first layer is  max (∑ s, x1[s, k'] · x0[j, s] + x2[k']) 0 : the first product
  contracts the FIRST axis of the weights with the SECOND of the block.  The two narrowings to
  half precision are the identity on the extended reals.  So column j of the logits is the
  network `Cert.PolicyNet.net` applied to row j of the block.
-/
import proofs.«170613_g2000106544280038_pallasbulk_1245_11_alg».proof.Proof.Gen.KernelIdeal.Skeleton
import proofs.«170613_g2000106544280038_pallasbulk_1245_11_alg».proof.Proof.Spec
import proofs.«170613_g2000106544280038_pallasbulk_1245_11_alg».proof.Proof.LibMatmulFin
import Idealize.ShloMosaic.Lib.Pipeline.Value
import Idealize.ShloMosaic.Lib.ValueLayout

noncomputable section

namespace Cert.KernelIdeal.KValue

open Idealize.ShloMosaic Idealize.ShloMosaic.ValueIdx Cert.LibMatmulFin
open Cert.KernelIdeal Cert.KernelIdeal.Gen Cert.PolicyNet

/-! ## The three stages of the logits -/

/-- First hidden layer on a block, unit × row. -/
def hid1 (x0 : Vec Ideal S16384x256 .f32) (x1 : Vec Ideal S256x256 .bf16) (x2 : Vec Ideal S256x1 .f32) :
    FVec Ideal S256x16384 .f32 :=
  maximumf (addf (matmul dot_S256x256_S16384x256_S256x16384_0_1_1_0_n_n none
      (shapeCast S256x256 x1 shapeCasts_S256x256_S256x256 : FVec Ideal S256x256 .bf16)
      (truncf .bf16 (x0 : FVec Ideal S16384x256 .f32) bitsLt_bf16_f32)
      (constant S256x16384 .f32 0x00000000#32))
    (broadcastTo S256x16384 (shapeCast S256x1 x2 shapeCasts_S256x1_S256x1 : FVec Ideal S256x1 .f32) broadcasts_S256x1_S256x16384))
    (broadcast S256x16384 (Scalar.ofBits .f32 0x00000000#32))

/-- Second hidden layer from the first, unit × row. -/
def hid2 (h1 : FVec Ideal S256x16384 .f32) (x3 : Vec Ideal S256x256 .bf16) (x4 : Vec Ideal S256x1 .f32) :
    FVec Ideal S256x16384 .f32 :=
  maximumf (addf (matmul dot_S256x256_S256x16384_S256x16384_1_0_0_1_n_n none
      (shapeCast S256x256 x3 shapeCasts_S256x256_S256x256 : FVec Ideal S256x256 .bf16)
      (truncf .bf16 h1 bitsLt_bf16_f32)
      (constant S256x16384 .f32 0x00000000#32))
    (broadcastTo S256x16384 (shapeCast S256x1 x4 shapeCasts_S256x1_S256x1 : FVec Ideal S256x1 .f32) broadcasts_S256x1_S256x16384))
    (broadcast S256x16384 (Scalar.ofBits .f32 0x00000000#32))

/-- The two heads' logits from the second layer, head × row. -/
def heads (h2 : FVec Ideal S256x16384 .f32) (x5 : Vec Ideal S2x256 .bf16) (x6 : Vec Ideal S2x1 .f32) :
    FVec Ideal S2x16384 .f32 :=
  addf (matmul dot_S2x256_S256x16384_S2x16384_1_0_0_1_n_n none
      (shapeCast S2x256 x5 shapeCasts_S2x256_S2x256 : FVec Ideal S2x256 .bf16)
      (truncf .bf16 h2 bitsLt_bf16_f32)
      (constant S2x16384 .f32 0x00000000#32))
    (broadcastTo S2x16384 (shapeCast S2x1 x6 shapeCasts_S2x1_S2x1 : FVec Ideal S2x1 .f32) broadcasts_S2x1_S2x16384)

/-- The body's logits are the three stages composed. -/
theorem pay2_eq (x0 : Vec Ideal S16384x256 .f32) (x1 : Vec Ideal S256x256 .bf16) (x2 : Vec Ideal S256x1 .f32)
    (x3 : Vec Ideal S256x256 .bf16) (x4 : Vec Ideal S256x1 .f32) (x5 : Vec Ideal S2x256 .bf16) (x6 : Vec Ideal S2x1 .f32) :
    k0_pay2 x0 x1 x2 x3 x4 x5 x6 = heads (hid2 (hid1 x0 x1 x2) x3 x4) x5 x6 := rfl

/-! ## Each stage at an entry -/

/-- Entry (k', j) of the first layer: the weights are read down their FIRST axis (feature s of unit
    k' is x1[s, k']) against row j of the block. -/
theorem hid1_apply (x0 : Vec Ideal S16384x256 .f32) (x1 : Vec Ideal S256x256 .bf16) (x2 : Vec Ideal S256x1 .f32)
    (k' : Fin 256) (j : Fin 16384) :
    hid1 x0 x1 x2 (ix2 k' j) = relu ((∑ s : Fin 256, x1 (ix2 s k') * x0 (ix2 j s)) + x2 (ix2 k' 0)) := by
  unfold hid1 relu
  simp only [shapeCast_self]
  exact congrArg₂ max (congrArg₂ (· + ·)
    (matmul_zero_apply_fin dot_S256x256_S16384x256_S256x16384_0_1_1_0_n_n 256 rfl rfl none (x1 : FVec Ideal S256x256 .bf16)
      (truncf .bf16 (x0 : FVec Ideal S16384x256 .f32) bitsLt_bf16_f32) (ix2 k' j) (fun s => ix2 s k') (fun s => ix2 j s)
      (fun s => idx2_ext _ _ (contrEquiv1_symm_val dot_S256x256_S16384x256_S256x16384_0_1_1_0_n_n 256 rfl rfl s) rfl)
      (fun s => idx2_ext _ _ rfl (contrEquiv1_symm_val dot_S256x256_S16384x256_S256x16384_0_1_1_0_n_n 256 rfl rfl s)))
    (broadcastTo_apply x2 broadcasts_S256x1_S256x16384 (ix2 k' j) (ix2 k' 0)
      (fun a => by match a with | ⟨0, _⟩ => rfl | ⟨1, _⟩ => rfl))) rfl

/-- Entry (k, j) of the second layer: row k of the transposed weights against column j of the first. -/
theorem hid2_apply (h1 : FVec Ideal S256x16384 .f32) (x3 : Vec Ideal S256x256 .bf16) (x4 : Vec Ideal S256x1 .f32)
    (k : Fin 256) (j : Fin 16384) :
    hid2 h1 x3 x4 (ix2 k j) = relu ((∑ k' : Fin 256, x3 (ix2 k k') * h1 (ix2 k' j)) + x4 (ix2 k 0)) := by
  unfold hid2 relu
  simp only [shapeCast_self]
  exact congrArg₂ max (congrArg₂ (· + ·)
    (matmul_zero_apply_fin dot_S256x256_S256x16384_S256x16384_1_0_0_1_n_n 256 rfl rfl none (x3 : FVec Ideal S256x256 .bf16)
      (truncf .bf16 h1 bitsLt_bf16_f32) (ix2 k j) (fun k' => ix2 k k') (fun k' => ix2 k' j)
      (fun s => idx2_ext _ _ rfl (contrEquiv1_symm_val dot_S256x256_S256x16384_S256x16384_1_0_0_1_n_n 256 rfl rfl s))
      (fun s => idx2_ext _ _ (contrEquiv1_symm_val dot_S256x256_S256x16384_S256x16384_1_0_0_1_n_n 256 rfl rfl s) rfl))
    (broadcastTo_apply x4 broadcasts_S256x1_S256x16384 (ix2 k j) (ix2 k 0)
      (fun a => by match a with | ⟨0, _⟩ => rfl | ⟨1, _⟩ => rfl))) rfl

/-- Entry (r, j) of the logits: head r's weights against column j of the second layer, plus its bias. -/
theorem heads_apply (h2 : FVec Ideal S256x16384 .f32) (x5 : Vec Ideal S2x256 .bf16) (x6 : Vec Ideal S2x1 .f32)
    (r : Fin 2) (j : Fin 16384) :
    heads h2 x5 x6 (ix2 r j) = (∑ k : Fin 256, x5 (ix2 r k) * h2 (ix2 k j)) + x6 (ix2 r 0) := by
  unfold heads
  simp only [shapeCast_self]
  exact congrArg₂ (· + ·)
    (matmul_zero_apply_fin dot_S2x256_S256x16384_S2x16384_1_0_0_1_n_n 256 rfl rfl none (x5 : FVec Ideal S2x256 .bf16)
      (truncf .bf16 h2 bitsLt_bf16_f32) (ix2 r j) (fun k => ix2 r k) (fun k => ix2 k j)
      (fun s => idx2_ext _ _ rfl (contrEquiv1_symm_val dot_S2x256_S256x16384_S2x16384_1_0_0_1_n_n 256 rfl rfl s))
      (fun s => idx2_ext _ _ (contrEquiv1_symm_val dot_S2x256_S256x16384_S2x16384_1_0_0_1_n_n 256 rfl rfl s) rfl))
    (broadcastTo_apply x6 broadcasts_S2x1_S2x16384 (ix2 r j) (ix2 r 0)
      (fun a => by match a with | ⟨0, _⟩ => rfl | ⟨1, _⟩ => rfl))

/-! ## The logits of a block are the network on its rows -/

/-- Entry (r, j) of the body's logits is head r of the network on row j of the block. -/
theorem logits_apply (x0 : Vec Ideal S16384x256 .f32) (x1 : Vec Ideal S256x256 .bf16) (x2 : Vec Ideal S256x1 .f32)
    (x3 : Vec Ideal S256x256 .bf16) (x4 : Vec Ideal S256x1 .f32) (x5 : Vec Ideal S2x256 .bf16) (x6 : Vec Ideal S2x1 .f32)
    (r : Fin 2) (j : Fin 16384) :
    k0_pay2 x0 x1 x2 x3 x4 x5 x6 (ix2 r j)
      = net (fun k' s => x1 (ix2 s k')) (fun k' => x2 (ix2 k' 0)) (fun k k' => x3 (ix2 k k')) (fun k => x4 (ix2 k 0))
          (fun k => x5 (ix2 r k)) (x6 (ix2 r 0)) (fun s => x0 (ix2 j s)) := by
  rw [pay2_eq, heads_apply]
  unfold net
  simp only [hid2_apply, hid1_apply]

/-! ## The two stored payloads -/

/-- From any logits matrix `z` (head × row): the mean's stored row is, at entry j, twice the
    hyperbolic tangent of z[0, j]. -/
theorem mean_of_logits (z : FVec Ideal S2x16384 .f32) (j : Fin 16384) :
    mulf (tanh (extractStridedSlice S1x16384 ![0, 0] z slices_S2x16384_o0_0_S1x16384))
        (broadcast S1x16384 (Scalar.ofBits .f32 0x40000000#32)) (ix2 0 j)
      = muOf (z (ix2 0 j)) :=
  congrArg (fun v => Ideal.tanh v * twoF)
    (slice2_axis0_apply 0 z slices_S2x16384_o0_0_S1x16384 (0 : Fin 1) j (0 : Fin 2) rfl)

/-- From any logits matrix `z`: row 1 cut out as a one-row matrix reads z[1, j] at entry j. -/
theorem row1_of_logits (z : FVec Ideal S2x16384 .f32) (j : Fin 16384) :
    extractStridedSlice S1x16384 ![1, 0] z slices_S2x16384_o1_0_S1x16384 (ix2 0 j) = z (ix2 1 j) :=
  slice2_axis0_apply 1 z slices_S2x16384_o1_0_S1x16384 (0 : Fin 1) j (1 : Fin 2) rfl

/-- From any one-row matrix `v` of logits: the deviation's stored row is, at every entry, the softplus
    of the logit plus the floor. -/
theorem dev_of_row (v : FVec Ideal S1x16384 .f32) (i : S1x16384.Idx) :
    k0_pay1 v (Scalar.ofBits .f32 0x00000000#32) i = sigmaOf (v i) := rfl

/-- What the body stores into the mean's block: twice the hyperbolic tangent of head 0's logit. -/
theorem mean_store_apply (x0 : Vec Ideal S16384x256 .f32) (x1 : Vec Ideal S256x256 .bf16) (x2 : Vec Ideal S256x1 .f32)
    (x3 : Vec Ideal S256x256 .bf16) (x4 : Vec Ideal S256x1 .f32) (x5 : Vec Ideal S2x256 .bf16) (x6 : Vec Ideal S2x1 .f32)
    (j : Fin 16384) :
    k0_pay4 x0 x1 x2 x3 x4 x5 x6 (ix2 0 j)
      = muOf (net (fun k' s => x1 (ix2 s k')) (fun k' => x2 (ix2 k' 0)) (fun k k' => x3 (ix2 k k')) (fun k => x4 (ix2 k 0))
          (fun k => x5 (ix2 0 k)) (x6 (ix2 0 0)) (fun s => x0 (ix2 j s))) :=
  (mean_of_logits (k0_pay2 x0 x1 x2 x3 x4 x5 x6) j).trans (congrArg muOf (logits_apply x0 x1 x2 x3 x4 x5 x6 0 j))

/-- What the body stores into the deviation's block: the softplus of head 1's logit, plus the floor. -/
theorem dev_store_apply (x0 : Vec Ideal S16384x256 .f32) (x1 : Vec Ideal S256x256 .bf16) (x2 : Vec Ideal S256x1 .f32)
    (x3 : Vec Ideal S256x256 .bf16) (x4 : Vec Ideal S256x1 .f32) (x5 : Vec Ideal S2x256 .bf16) (x6 : Vec Ideal S2x1 .f32)
    (j : Fin 16384) :
    k0_pay1 (k0_pay3 x0 x1 x2 x3 x4 x5 x6) (Scalar.ofBits .f32 0x00000000#32) (ix2 0 j)
      = sigmaOf (net (fun k' s => x1 (ix2 s k')) (fun k' => x2 (ix2 k' 0)) (fun k k' => x3 (ix2 k k')) (fun k => x4 (ix2 k 0))
          (fun k => x5 (ix2 1 k)) (x6 (ix2 1 0)) (fun s => x0 (ix2 j s))) :=
  (dev_of_row (k0_pay3 x0 x1 x2 x3 x4 x5 x6) (ix2 0 j)).trans
    (congrArg sigmaOf ((row1_of_logits (k0_pay2 x0 x1 x2 x3 x4 x5 x6) j).trans (logits_apply x0 x1 x2 x3 x4 x5 x6 1 j)))

end Cert.KernelIdeal.KValue

end
-- ==== Proof.LibRowColumn.lean ====
/-
  Two small layout facts about matrices with an axis of extent one.

  * A row [1, a] recast as a column [a, 1] keeps its entries in order: the column's entry k is the
    row's entry k (both shapes list the same `a` numbers in row-major order).
  * Two columns [a, 1] set side by side along the second axis make an [a, 2] matrix whose column 0
    is the first and whose column 1 is the second.
-/
import Idealize.ShloMosaic.Lib.ValueIdx
import Idealize.ShloMosaic.Lib.Pipeline.Value

noncomputable section

namespace Cert.LibRowColumn

open Idealize.ShloMosaic Idealize.ShloMosaic.ValueIdx

variable {α : Type}

/-- A row recast as a column, read at entry `k`: the row's entry `k`. (`u`, `v` are the coordinates on
    the unit axes; each can only be zero.) -/
theorem shapeCast_row_col_apply {a : Nat} (x : (⟨2, ![1, a]⟩ : Shape).Idx → α)
    (h : (⟨2, ![1, a]⟩ : Shape).ShapeCasts ⟨2, ![a, 1]⟩) (k : Fin a) (u v : Fin 1) :
    shapeCast ⟨2, ![a, 1]⟩ x h (ix2 k u) = x (ix2 v k) := by
  obtain rfl : v = 0 := Fin.fin_one_eq_zero v
  obtain rfl : u = 0 := Fin.fin_one_eq_zero u
  refine shapeCast_apply x h (ix2 k 0) (ix2 0 k) ?_
  rw [Shape.rowMajor_val_two, Shape.rowMajor_val_two]
  show 0 * a + k.val = k.val * 1 + 0
  omega

/-- Column 0 of two columns set side by side is the first column. -/
theorem concat_cols_apply_left {a : Nat} (A B : (⟨2, ![a, 1]⟩ : Shape).Idx → α)
    (h : Shape.Concatenates [(⟨2, ![a, 1]⟩ : Shape), ⟨2, ![a, 1]⟩] ⟨2, ![a, 2]⟩ 1) (k : Fin a) :
    concatenate ⟨2, ![a, 2]⟩ 1 [⟨⟨2, ![a, 1]⟩, A⟩, ⟨⟨2, ![a, 1]⟩, B⟩] h (ix2 k 0) = A (ix2 k 0) :=
  concatenate_pair_apply_left 1 A B h (ix2 k 0) rfl (ix2 k 0)
    (fun b => match b with | ⟨0, _⟩ => rfl | ⟨1, _⟩ => rfl)

/-- Column 1 of two columns set side by side is the second column. -/
theorem concat_cols_apply_right {a : Nat} (A B : (⟨2, ![a, 1]⟩ : Shape).Idx → α)
    (h : Shape.Concatenates [(⟨2, ![a, 1]⟩ : Shape), ⟨2, ![a, 1]⟩] ⟨2, ![a, 2]⟩ 1) (k : Fin a) :
    concatenate ⟨2, ![a, 2]⟩ 1 [⟨⟨2, ![a, 1]⟩, A⟩, ⟨⟨2, ![a, 1]⟩, B⟩] h (ix2 k 1) = B (ix2 k 0) :=
  concatenate_pair_apply_right 1 A B h (ix2 k 1) rfl rfl (ix2 k 0)
    (fun b hb => match b, hb with | ⟨0, _⟩, _ => rfl | ⟨1, _⟩, hb => absurd rfl hb)
    rfl

end Cert.LibRowColumn

end
-- ==== Proof.KHost.lean ====
/-
  The arrays the kernel's region finds, as functions of the program's arguments.

  Before the region the program prepares its operands on the host:
    * the first-layer weights are narrowed to half precision (the identity on the extended reals);
    * each bias row [1, 256] is recast as a column [256, 1];
    * the second-layer weights are transposed, then narrowed: entry (k, k') is w2[k', k];
    * the two heads' weight columns are set side by side, transposed and narrowed: row 0 is the
      mean head's column, row 1 the deviation head's;
    * the two heads' biases are set side by side and recast as a column: entry 0 is the mean
      head's, entry 1 the deviation head's.
  Each array is first named as the operations' term of the arguments, then read at an entry.
-/
import proofs.«170613_g2000106544280038_pallasbulk_1245_11_alg».proof.Proof.Gen.KernelIdeal.Frame
import proofs.«170613_g2000106544280038_pallasbulk_1245_11_alg».proof.Proof.LibRowColumn
import Idealize.ShloMosaic.Lib.ValueLayout
import Idealize.ShloMosaic.Lib.StableHlo.Run

noncomputable section

namespace Cert.KernelIdeal.KValue

open Idealize.ShloMosaic Idealize.ShloMosaic.TcCoe Idealize.SL.Sem Idealize.ShloMosaic.ValueIdx
open Cert.KernelIdeal Cert.KernelIdeal.Gen Cert.LibRowColumn

variable (m : (ℓ : Loc nD τ sig) → Buf (Elt Ideal) ℓ) (c : Dev nD)

/-! ## Each prepared array as a term of the arguments -/

theorem V_v0 : @Eq (FVec Ideal S256x256 .bf16) (V m c main_v0)
    (truncf .bf16 ((m ((c.tc : Thread nD τ).loc main_arg1)) : FVec Ideal S256x256 .f32) bitsLt_bf16_f32) := by
  show StableHlo.after hostOps0 (fun b => m (c, b)) (Proc.devRef .tc main_v0) = _
  after_results

theorem V_v1 : @Eq (FVec Ideal S256x1 .f32) (V m c main_v1)
    (shapeCast S256x1 (m ((c.tc : Thread nD τ).loc main_arg2)) shapeCasts_S1x256_S256x1) := by
  show StableHlo.after hostOps0 (fun b => m (c, b)) (Proc.devRef .tc main_v1) = _
  after_results
  rfl

theorem V_v3 : @Eq (FVec Ideal S256x256 .bf16) (V m c main_v3)
    (truncf .bf16 (transpose S256x256 [1, 0] (m ((c.tc : Thread nD τ).loc main_arg3)) transposes_S256x256_S256x256_1_0 : FVec Ideal S256x256 .f32) bitsLt_bf16_f32) := by
  show StableHlo.after hostOps0 (fun b => m (c, b)) (Proc.devRef .tc main_v3) = _
  after_results

theorem V_v4 : @Eq (FVec Ideal S256x1 .f32) (V m c main_v4)
    (shapeCast S256x1 (m ((c.tc : Thread nD τ).loc main_arg4)) shapeCasts_S1x256_S256x1) := by
  show StableHlo.after hostOps0 (fun b => m (c, b)) (Proc.devRef .tc main_v4) = _
  after_results
  rfl

theorem V_v7 : @Eq (FVec Ideal S2x256 .bf16) (V m c main_v7)
    (truncf .bf16 (transpose S2x256 [1, 0] (concatenate S256x2 1 [⟨S256x1, (m ((c.tc : Thread nD τ).loc main_arg5))⟩, ⟨S256x1, (m ((c.tc : Thread nD τ).loc main_arg7))⟩] concatenates_S256x1_S256x1_S256x2_d1) transposes_S256x2_S2x256_1_0 : FVec Ideal S2x256 .f32) bitsLt_bf16_f32) := by
  show StableHlo.after hostOps0 (fun b => m (c, b)) (Proc.devRef .tc main_v7) = _
  after_results

theorem V_v9 : @Eq (FVec Ideal S2x1 .f32) (V m c main_v9)
    (shapeCast S2x1 (concatenate S1x2 1 [⟨S1x1, (m ((c.tc : Thread nD τ).loc main_arg6))⟩, ⟨S1x1, (m ((c.tc : Thread nD τ).loc main_arg8))⟩] concatenates_S1x1_S1x1_S1x2_d1) shapeCasts_S1x2_S2x1) := by
  show StableHlo.after hostOps0 (fun b => m (c, b)) (Proc.devRef .tc main_v9) = _
  after_results
  rfl

/-! ## Read at an entry -/

/-- The narrowed first-layer weights are the argument's, entry for entry. -/
theorem w1_at (s k' : Fin 256) :
    (V m c main_v0 : FVec Ideal S256x256 .bf16) (ix2 s k') = ((m ((c.tc : Thread nD τ).loc main_arg1)) : FVec Ideal S256x256 .f32) (ix2 s k') := by
  rw [V_v0]; rfl

/-- Entry k' of the first bias column is entry k' of the bias row. -/
theorem b1_at (k' : Fin 256) :
    (V m c main_v1 : FVec Ideal S256x1 .f32) (ix2 k' 0) = ((m ((c.tc : Thread nD τ).loc main_arg2)) : FVec Ideal S1x256 .f32) (ix2 0 k') := by
  rw [V_v1]; exact shapeCast_row_col_apply _ _ k' 0 0

/-- Entry (k, k') of the prepared second-layer weights is w2[k', k]. -/
theorem w2_at (k k' : Fin 256) :
    (V m c main_v3 : FVec Ideal S256x256 .bf16) (ix2 k k') = ((m ((c.tc : Thread nD τ).loc main_arg3)) : FVec Ideal S256x256 .f32) (ix2 k' k) := by
  rw [V_v3]; exact transpose_ix2_apply _ _ k k'

/-- Entry k of the second bias column is entry k of the bias row. -/
theorem b2_at (k : Fin 256) :
    (V m c main_v4 : FVec Ideal S256x1 .f32) (ix2 k 0) = ((m ((c.tc : Thread nD τ).loc main_arg4)) : FVec Ideal S1x256 .f32) (ix2 0 k) := by
  rw [V_v4]; exact shapeCast_row_col_apply _ _ k 0 0

/-- Row 0 of the heads' weights is the mean head's column. -/
theorem wh_at0 (k : Fin 256) :
    (V m c main_v7 : FVec Ideal S2x256 .bf16) (ix2 0 k) = ((m ((c.tc : Thread nD τ).loc main_arg5)) : FVec Ideal S256x1 .f32) (ix2 k 0) := by
  rw [V_v7]
  have e := transpose_ix2_apply (concatenate S256x2 1 [⟨S256x1, (m ((c.tc : Thread nD τ).loc main_arg5))⟩, ⟨S256x1, (m ((c.tc : Thread nD τ).loc main_arg7))⟩] concatenates_S256x1_S256x1_S256x2_d1) transposes_S256x2_S2x256_1_0 (0 : Fin 2) k
  exact e.trans (concat_cols_apply_left _ _ _ k)

/-- Row 1 of the heads' weights is the deviation head's column. -/
theorem wh_at1 (k : Fin 256) :
    (V m c main_v7 : FVec Ideal S2x256 .bf16) (ix2 1 k) = ((m ((c.tc : Thread nD τ).loc main_arg7)) : FVec Ideal S256x1 .f32) (ix2 k 0) := by
  rw [V_v7]
  have e := transpose_ix2_apply (concatenate S256x2 1 [⟨S256x1, (m ((c.tc : Thread nD τ).loc main_arg5))⟩, ⟨S256x1, (m ((c.tc : Thread nD τ).loc main_arg7))⟩] concatenates_S256x1_S256x1_S256x2_d1) transposes_S256x2_S2x256_1_0 (1 : Fin 2) k
  exact e.trans (concat_cols_apply_right _ _ _ k)

/-- Entry 0 of the heads' bias column is the mean head's bias. -/
theorem bh_at0 :
    (V m c main_v9 : FVec Ideal S2x1 .f32) (ix2 0 0) = ((m ((c.tc : Thread nD τ).loc main_arg6)) : FVec Ideal S1x1 .f32) (ix2 0 0) := by
  rw [V_v9]
  exact (shapeCast_row_col_apply _ _ (0 : Fin 2) 0 0).trans (concat_cols_apply_left _ _ _ (0 : Fin 1))

/-- Entry 1 of the heads' bias column is the deviation head's bias. -/
theorem bh_at1 :
    (V m c main_v9 : FVec Ideal S2x1 .f32) (ix2 1 0) = ((m ((c.tc : Thread nD τ).loc main_arg8)) : FVec Ideal S1x1 .f32) (ix2 0 0) := by
  rw [V_v9]
  exact (shapeCast_row_col_apply _ _ (1 : Fin 2) 0 0).trans (concat_cols_apply_right _ _ _ (0 : Fin 1))

end Cert.KernelIdeal.KValue

end
-- ==== Proof.NetCongr.lean ====
/-
  The network depends on its weights, biases and input only through their entries: two readings
  that agree entry by entry give the same logit.  This is how a block of a prepared array is
  exchanged for the argument array it was cut from.
-/
import proofs.«170613_g2000106544280038_pallasbulk_1245_11_alg».proof.Proof.Spec

noncomputable section

namespace Cert.PolicyNet

/-- Entrywise equal weights, biases and input give equal logits. -/
theorem net_congr {W1 W1' : Fin 256 → Fin 256 → EReal} {B1 B1' : Fin 256 → EReal} {W2 W2' : Fin 256 → Fin 256 → EReal}
    {B2 B2' : Fin 256 → EReal} {WH WH' : Fin 256 → EReal} {BH BH' : EReal} {xc xc' : Fin 256 → EReal}
    (h1 : ∀ k' s, W1 k' s = W1' k' s) (hb1 : ∀ k', B1 k' = B1' k') (h2 : ∀ k k', W2 k k' = W2' k k')
    (hb2 : ∀ k, B2 k = B2' k) (hh : ∀ k, WH k = WH' k) (hbh : BH = BH') (hx : ∀ s, xc s = xc' s) :
    net W1 B1 W2 B2 WH BH xc = net W1' B1' W2' B2' WH' BH' xc' := by
  obtain rfl : W1 = W1' := funext fun k' => funext fun s => h1 k' s
  obtain rfl : B1 = B1' := funext hb1
  obtain rfl : W2 = W2' := funext fun k => funext fun k' => h2 k k'
  obtain rfl : B2 = B2' := funext hb2
  obtain rfl : WH = WH' := funext hh
  obtain rfl : xc = xc' := funext hx
  rw [hbh]

end Cert.PolicyNet

end
-- ==== Proof.KBlocks.lean ====
/-
  From what each grid point writes back to the two result rows as wholes.

  The region runs eight points.  Point `t` is handed rows 16384 t … 16384 t + 16383 of the batch and
  the six prepared weight and bias arrays whole, and writes back columns 16384 t … 16384 t + 16383
  of two rows [1, 131072]: the means and the deviations.  Entry y of what it writes is the network
  on row y of its block, which is row 16384 t + y of the batch; so what it writes is block `t` of ONE
  row-valued function of the arguments.  The eight blocks tile the row (entry b lies in the block of
  point b / 16384), hence after the run each row IS that function.
-/
import proofs.«170613_g2000106544280038_pallasbulk_1245_11_alg».proof.Proof.Gen.KernelIdeal.Frame
import proofs.«170613_g2000106544280038_pallasbulk_1245_11_alg».proof.Proof.KPayload
import proofs.«170613_g2000106544280038_pallasbulk_1245_11_alg».proof.Proof.KHost
import proofs.«170613_g2000106544280038_pallasbulk_1245_11_alg».proof.Proof.NetCongr
import Idealize.ShloMosaic.Lib.Pipeline.Value

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.PolicyNet Cert.LibMatmulFin

variable (m : (ℓ : Loc nD τ sig) → Buf (Elt Ideal) ℓ) (c : Dev nD)

theorem hz : (![0, 0] : Fin 2 → Nat) = fun _ => 0 := funext fun a => by fin_cases a <;> rfl

/-- The printed index maps, decided over the eight points: the batch's window and the two results'
    windows move with the point along their long axis; every other window stays at block (0, 0). -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = t.val
    ∧ win0_8.index t (0 : Fin 2) = 0
    ∧ win0_8.index t (1 : Fin 2) = t.val :=
  (by decide +kernel : ∀ t : Fin grid0.N, _)

/-! ## The input blocks -/

/-- Entry (j, s) of the batch's block at point `t` is entry (16384 t + j, s) of the batch. -/
theorem x_block (t : Fin cfg0.N) (j : Fin 16384) (s : Fin 256) (b : Fin 131072) (hb : b.val = 16384 * t.val + j.val) :
    (iblk m c 0 t : Vec Ideal S16384x256 .f32) (ix2 j s) = ((m ((c.tc : Thread nD τ).loc main_arg0)) : FVec Ideal S131072x256 .f32) (ix2 b s) := by
  obtain ⟨e0, e1, -, -, -, -, -, -, -, -, -, -, -, -, -, -, -, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 16384 + 1 * j.val = b.val; rw [e0, hb]; omega
  | ⟨1, _⟩ => show win0_0.index t (1 : Fin 2) * 256 + 1 * s.val = s.val; rw [e1]; omega

/-- The first-layer weights' block is the whole prepared array. -/
theorem w1_block (t : Fin cfg0.N) (y : S256x256.Idx) :
    (iblk m c 1 t : Vec Ideal S256x256 .bf16) y = (V m c main_v0 : FVec Ideal S256x256 .bf16) y := by
  obtain ⟨-, -, e0, e1, -, -, -, -, -, -, -, -, -, -, -, -, -, -⟩ := idx_facts t
  unfold iblk
  rw [View.read_apply]
  show V m c main_v0 _ = V m c main_v0 y
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The first bias column's block is the whole column. -/
theorem b1_block (t : Fin cfg0.N) (y : S256x1.Idx) :
    (iblk m c 2 t : Vec Ideal S256x1 .f32) y = (V m c main_v1 : FVec Ideal S256x1 .f32) y := by
  obtain ⟨-, -, -, -, e0, e1, -, -, -, -, -, -, -, -, -, -, -, -⟩ := idx_facts t
  unfold iblk
  rw [View.read_apply]
  show V m c main_v1 _ = V m c main_v1 y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 1 + 1 * (y 1).val = (y 1).val; rw [e1]; omega

/-- The second-layer weights' block is the whole prepared array. -/
theorem w2_block (t : Fin cfg0.N) (y : S256x256.Idx) :
    (iblk m c 3 t : Vec Ideal S256x256 .bf16) y = (V m c main_v3 : FVec Ideal S256x256 .bf16) y := by
  obtain ⟨-, -, -, -, -, -, e0, e1, -, -, -, -, -, -, -, -, -, -⟩ := idx_facts t
  unfold iblk
  rw [View.read_apply]
  show V m c main_v3 _ = V m c main_v3 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The second bias column's block is the whole column. -/
theorem b2_block (t : Fin cfg0.N) (y : S256x1.Idx) :
    (iblk m c 4 t : Vec Ideal S256x1 .f32) y = (V m c main_v4 : FVec Ideal S256x1 .f32) y := by
  obtain ⟨-, -, -, -, -, -, -, -, e0, e1, -, -, -, -, -, -, -, -⟩ := idx_facts t
  unfold iblk
  rw [View.read_apply]
  show V m c main_v4 _ = V m c main_v4 y
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 1 + 1 * (y 1).val = (y 1).val; rw [e1]; omega

/-- The heads' weights' block is the whole prepared array. -/
theorem wh_block (t : Fin cfg0.N) (y : S2x256.Idx) :
    (iblk m c 5 t : Vec Ideal S2x256 .bf16) y = (V m c main_v7 : FVec Ideal S2x256 .bf16) y := by
  obtain ⟨-, -, -, -, -, -, -, -, -, -, e0, e1, -, -, -, -, -, -⟩ := idx_facts t
  unfold iblk
  rw [View.read_apply]
  show V m c main_v7 _ = V m c main_v7 y
  refine congrArg _ (funext fun a => Fin.ext ?_)
  match a with
  | ⟨0, _⟩ => show win0_5.index t (0 : Fin 2) * 2 + 1 * (y 0).val = (y 0).val; rw [e0]; omega
  | ⟨1, _⟩ => show win0_5.index t (1 : Fin 2) * 256 + 1 * (y 1).val = (y 1).val; rw [e1]; omega

/-- The heads' bias column's block is the whole column. -/
theorem bh_block (t : Fin cfg0.N) (y : S2x1.Idx) :
    (iblk m c 6 t : Vec Ideal S2x1 .f32) y = (V m c main_v9 : FVec Ideal S2x1 .f32) y := by
  obtain ⟨-, -, -, -, -, -, -, -, -, -, -, -, e0, e1, -, -, -, -⟩ := idx_facts t
  unfold iblk
  rw [View.read_apply]
  show V m c main_v9 _ = V m c main_v9 y
  refine congrArg _ (funext fun a => Fin.ext ?_)
  match a with
  | ⟨0, _⟩ => show win0_6.index t (0 : Fin 2) * 2 + 1 * (y 0).val = (y 0).val; rw [e0]; omega
  | ⟨1, _⟩ => show win0_6.index t (1 : Fin 2) * 1 + 1 * (y 1).val = (y 1).val; rw [e1]; omega

/-! ## The mean: output window 7 -/

/-- Entry (0, b) of the row of means: muOf of that head's logit on row b of the batch. -/
def meanRow : FVec Ideal S1x131072 .f32 := fun i =>
  muOf (logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 1))

/-- What point `t` stores at entry `y` of its block is the row's entry 16384 t + y: the block's rows are rows
    16384 t … 16384 t + 16383 of the batch, and every other operand is a whole prepared array. -/
theorem mean_point (t : Fin cfg0.N) (y : S1x16384.Idx) (b : Fin 131072) (hb : b.val = 16384 * t.val + (y 1).val) :
    k0_pay4 (iblk m c 0 t : Vec Ideal S16384x256 .f32) (iblk m c 1 t : Vec Ideal S256x256 .bf16) (iblk m c 2 t : Vec Ideal S256x1 .f32)
      (iblk m c 3 t : Vec Ideal S256x256 .bf16) (iblk m c 4 t : Vec Ideal S256x1 .f32) (iblk m c 5 t : Vec Ideal S2x256 .bf16) (iblk m c 6 t : Vec Ideal S2x1 .f32) y = meanRow m c (ix2 0 b) := by
  obtain ⟨p, j, rfl⟩ : ∃ (p : Fin 1) (j : Fin 16384), y = ix2 p j := ⟨y 0, y 1, eq_ix2 y⟩
  obtain rfl : p = 0 := Fin.fin_one_eq_zero p
  refine (mean_store_apply _ _ _ _ _ _ _ j).trans ?_
  unfold meanRow logit
  exact congrArg muOf (net_congr
    (fun k' s => (w1_block m c t (ix2 s k')).trans (w1_at m c s k'))
    (fun k' => (b1_block m c t (ix2 k' 0)).trans (b1_at m c k'))
    (fun k k' => (w2_block m c t (ix2 k k')).trans (w2_at m c k k'))
    (fun k => (b2_block m c t (ix2 k 0)).trans (b2_at m c k))
    (fun k => (wh_block m c t (ix2 0 k)).trans (wh_at0 m c k))
    ((bh_block m c t (ix2 0 0)).trans (bh_at0 m c))
    (fun s => x_block m c t j s b hb))

/-- WHAT POINT `t` WRITES BACK is block `t` of the row. -/
theorem flushed_mean (t : Fin cfg0.N) :
    (dats m 0 c).flushed 7 t = ((cfg0.win 7).blk t).view.read (Elt Ideal) (meanRow m c) := by
  obtain ⟨-, -, -, -, -, -, -, -, -, -, -, -, -, -, e0, e1, -, -⟩ := idx_facts t
  have ht : t.val < 8 := Nat.lt_of_lt_of_eq t.isLt N_0
  show (cfg0.win 7).cut (grid0.coords t) ((dats m 0 c).after 7 t) = _
  rw [after0_7]
  unfold out0_7
  rw [View.canon_unit_zero hz]
  simp only [View.ld_unit_zero (S := S16384x256) hz, View.ld_unit_zero (S := S256x256) hz, View.ld_unit_zero (S := S256x1) hz,
    View.ld_unit_zero (S := S2x256) hz, View.ld_unit_zero (S := S2x1) hz]
  funext y
  have hy0 : (y 0).val < 1 := (y 0).isLt
  have hy1 : (y 1).val < 16384 := (y 1).isLt
  refine (mean_point m c t y ⟨16384 * t.val + (y 1).val, by omega⟩ rfl).trans ?_
  refine congrArg (meanRow m c) (funext fun a => Fin.ext ?_)
  match a with
  | ⟨0, _⟩ => show 0 = win0_7.index t (0 : Fin 2) * 1 + 1 * (y 0).val; rw [e0]; omega
  | ⟨1, _⟩ => show 16384 * t.val + (y 1).val = win0_7.index t (1 : Fin 2) * 16384 + 1 * (y 1).val; rw [e1]; omega

/-- An index of the row is in point `t`'s block iff each coordinate is in the block's range on its axis. -/
theorem mem_blk_mean (t : Fin cfg0.N) (i : S1x131072.Idx) :
    i ∈ ((cfg0.win 7).blk t).view.set ↔ ∀ a : Fin 2, win0_7.index t a * S1x16384.size a ≤ (i a).val
      ∧ (i a).val < win0_7.index t a * S1x16384.size a + S1x16384.size a := by
  show i ∈ ((View.whole main_v10_0).slice (win0_7.rect t)).set ↔ _
  rw [View.set_slice_whole, Rect.mem_set_unit]
  exact Iff.rfl

/-- Every entry of the row lies in the block of the point numbered by its column divided by 16384. -/
theorem cover_mean (i : S1x131072.Idx) :
    ∃ t : Fin cfg0.N, (cfg0.win 7).flush t = true ∧ i ∈ ((cfg0.win 7).blk t).view.set := by
  have hi0 : (i 0).val < 1 := (i 0).isLt
  have hi1 : (i 1).val < 131072 := (i 1).isLt
  have hq : (i 1).val / 16384 < cfg0.N := by rw [show cfg0.N = 8 from N_0]; omega
  refine ⟨⟨(i 1).val / 16384, hq⟩, flush0_7 _, ?_⟩
  rw [mem_blk_mean]
  obtain ⟨-, -, -, -, -, -, -, -, -, -, -, -, -, -, e0, e1, -, -⟩ := idx_facts ⟨(i 1).val / 16384, hq⟩
  intro a
  match a with
  | ⟨0, _⟩ =>
    show win0_7.index ⟨(i 1).val / 16384, hq⟩ (0 : Fin 2) * 1 ≤ (i 0).val
      ∧ (i 0).val < win0_7.index ⟨(i 1).val / 16384, hq⟩ (0 : Fin 2) * 1 + 1
    rw [e0]; omega
  | ⟨1, _⟩ =>
    show win0_7.index ⟨(i 1).val / 16384, hq⟩ (1 : Fin 2) * 16384 ≤ (i 1).val
      ∧ (i 1).val < win0_7.index ⟨(i 1).val / 16384, hq⟩ (1 : Fin 2) * 16384 + 16384
    rw [e1]; show (i 1).val / 16384 * 16384 ≤ (i 1).val ∧ (i 1).val < (i 1).val / 16384 * 16384 + 16384; omega

/-- THE ARRAY after the run: the blocks tile the row, so it ends holding the row of means. -/
theorem final_mean : (dats m 0 c).arrAt 7 cfg0.N = meanRow m c :=
  (dats m 0 c).arrAt_eq_of_cover 7 (meanRow m c) (fun t _ => flushed_mean m c t) (cover_mean)

/-! ## The deviation: output window 8 -/

/-- Entry (0, b) of the row of deviations: sigmaOf of that head's logit on row b of the batch. -/
def devRow : FVec Ideal S1x131072 .f32 := fun i =>
  sigmaOf (logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (i 1))

/-- What point `t` stores at entry `y` of its block is the row's entry 16384 t + y: the block's rows are rows
    16384 t … 16384 t + 16383 of the batch, and every other operand is a whole prepared array. -/
theorem dev_point (t : Fin cfg0.N) (y : S1x16384.Idx) (b : Fin 131072) (hb : b.val = 16384 * t.val + (y 1).val) :
    k0_pay1 (k0_pay3 (iblk m c 0 t : Vec Ideal S16384x256 .f32) (iblk m c 1 t : Vec Ideal S256x256 .bf16) (iblk m c 2 t : Vec Ideal S256x1 .f32)
      (iblk m c 3 t : Vec Ideal S256x256 .bf16) (iblk m c 4 t : Vec Ideal S256x1 .f32) (iblk m c 5 t : Vec Ideal S2x256 .bf16) (iblk m c 6 t : Vec Ideal S2x1 .f32)) (Scalar.ofBits .f32 0x00000000#32) y = devRow m c (ix2 0 b) := by
  obtain ⟨p, j, rfl⟩ : ∃ (p : Fin 1) (j : Fin 16384), y = ix2 p j := ⟨y 0, y 1, eq_ix2 y⟩
  obtain rfl : p = 0 := Fin.fin_one_eq_zero p
  refine (dev_store_apply _ _ _ _ _ _ _ j).trans ?_
  unfold devRow logit
  exact congrArg sigmaOf (net_congr
    (fun k' s => (w1_block m c t (ix2 s k')).trans (w1_at m c s k'))
    (fun k' => (b1_block m c t (ix2 k' 0)).trans (b1_at m c k'))
    (fun k k' => (w2_block m c t (ix2 k k')).trans (w2_at m c k k'))
    (fun k => (b2_block m c t (ix2 k 0)).trans (b2_at m c k))
    (fun k => (wh_block m c t (ix2 1 k)).trans (wh_at1 m c k))
    ((bh_block m c t (ix2 1 0)).trans (bh_at1 m c))
    (fun s => x_block m c t j s b hb))

/-- WHAT POINT `t` WRITES BACK is block `t` of the row. -/
theorem flushed_dev (t : Fin cfg0.N) :
    (dats m 0 c).flushed 8 t = ((cfg0.win 8).blk t).view.read (Elt Ideal) (devRow m c) := by
  obtain ⟨-, -, -, -, -, -, -, -, -, -, -, -, -, -, -, -, e0, e1⟩ := idx_facts t
  have ht : t.val < 8 := Nat.lt_of_lt_of_eq t.isLt N_0
  show (cfg0.win 8).cut (grid0.coords t) ((dats m 0 c).after 8 t) = _
  rw [after0_8]
  unfold out0_8
  rw [View.canon_unit_zero hz]
  simp only [View.ld_unit_zero (S := S16384x256) hz, View.ld_unit_zero (S := S256x256) hz, View.ld_unit_zero (S := S256x1) hz,
    View.ld_unit_zero (S := S2x256) hz, View.ld_unit_zero (S := S2x1) hz]
  funext y
  have hy0 : (y 0).val < 1 := (y 0).isLt
  have hy1 : (y 1).val < 16384 := (y 1).isLt
  refine (dev_point m c t y ⟨16384 * t.val + (y 1).val, by omega⟩ rfl).trans ?_
  refine congrArg (devRow m c) (funext fun a => Fin.ext ?_)
  match a with
  | ⟨0, _⟩ => show 0 = win0_8.index t (0 : Fin 2) * 1 + 1 * (y 0).val; rw [e0]; omega
  | ⟨1, _⟩ => show 16384 * t.val + (y 1).val = win0_8.index t (1 : Fin 2) * 16384 + 1 * (y 1).val; rw [e1]; omega

/-- An index of the row is in point `t`'s block iff each coordinate is in the block's range on its axis. -/
theorem mem_blk_dev (t : Fin cfg0.N) (i : S1x131072.Idx) :
    i ∈ ((cfg0.win 8).blk t).view.set ↔ ∀ a : Fin 2, win0_8.index t a * S1x16384.size a ≤ (i a).val
      ∧ (i a).val < win0_8.index t a * S1x16384.size a + S1x16384.size a := by
  show i ∈ ((View.whole main_v10_1).slice (win0_8.rect t)).set ↔ _
  rw [View.set_slice_whole, Rect.mem_set_unit]
  exact Iff.rfl

/-- Every entry of the row lies in the block of the point numbered by its column divided by 16384. -/
theorem cover_dev (i : S1x131072.Idx) :
    ∃ t : Fin cfg0.N, (cfg0.win 8).flush t = true ∧ i ∈ ((cfg0.win 8).blk t).view.set := by
  have hi0 : (i 0).val < 1 := (i 0).isLt
  have hi1 : (i 1).val < 131072 := (i 1).isLt
  have hq : (i 1).val / 16384 < cfg0.N := by rw [show cfg0.N = 8 from N_0]; omega
  refine ⟨⟨(i 1).val / 16384, hq⟩, flush0_8 _, ?_⟩
  rw [mem_blk_dev]
  obtain ⟨-, -, -, -, -, -, -, -, -, -, -, -, -, -, -, -, e0, e1⟩ := idx_facts ⟨(i 1).val / 16384, hq⟩
  intro a
  match a with
  | ⟨0, _⟩ =>
    show win0_8.index ⟨(i 1).val / 16384, hq⟩ (0 : Fin 2) * 1 ≤ (i 0).val
      ∧ (i 0).val < win0_8.index ⟨(i 1).val / 16384, hq⟩ (0 : Fin 2) * 1 + 1
    rw [e0]; omega
  | ⟨1, _⟩ =>
    show win0_8.index ⟨(i 1).val / 16384, hq⟩ (1 : Fin 2) * 16384 ≤ (i 1).val
      ∧ (i 1).val < win0_8.index ⟨(i 1).val / 16384, hq⟩ (1 : Fin 2) * 16384 + 16384
    rw [e1]; show (i 1).val / 16384 * 16384 ≤ (i 1).val ∧ (i 1).val < (i 1).val / 16384 * 16384 + 16384; omega

/-- THE ARRAY after the run: the blocks tile the row, so it ends holding the row of deviations. -/
theorem final_dev : (dats m 0 c).arrAt 8 cfg0.N = devRow m c :=
  (dats m 0 c).arrAt_eq_of_cover 8 (devRow m c) (fun t _ => flushed_dev m c t) (cover_dev)

end Cert.KernelIdeal.KValue

end
-- ==== Proof.KRun.lean ====
/-
  The kernel program's run, read: its two results as functions of its arguments.

  After the region the program recasts each result row [1, 131072] as a column [131072, 1]; a row
  recast as a column keeps its entries in order, so entry b of each column is the row's entry b:
  the mean, respectively the deviation, of row b of the batch.  The region's two arrays are the
  rows found in the blocks-to-array step; the nine arguments end as they began.
-/
import proofs.«170613_g2000106544280038_pallasbulk_1245_11_alg».proof.Proof.Gen.KernelIdeal.Frame
import proofs.«170613_g2000106544280038_pallasbulk_1245_11_alg».proof.Proof.KBlocks
import proofs.«170613_g2000106544280038_pallasbulk_1245_11_alg».proof.Proof.LibRowColumn
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.PolicyNet Cert.LibRowColumn

variable (m : (ℓ : Loc nD τ sig) → Buf (Elt Ideal) ℓ) (ρ : Dev nD → PrngReg) (c : Dev nD)

/-! ## The region's two arrays, as the lines after the region find them -/

theorem region_mean :
    (Pipeline.withArrays (cfgs 0).spec c (V0 m c) (fun w => (dats m 0 c).arrAt w (cfgs 0).N) (Proc.devRef .tc main_v10_0)) = meanRow m c :=
  (Pipeline.withArrays_arr spec0 launch0.win.arr_inj c (V0 m c) (fun w => (dats m 0 c).arrAt w (cfgs 0).N) 7).trans (final_mean m c)

theorem region_dev :
    (Pipeline.withArrays (cfgs 0).spec c (V0 m c) (fun w => (dats m 0 c).arrAt w (cfgs 0).N) (Proc.devRef .tc main_v10_1)) = devRow m c :=
  (Pipeline.withArrays_arr spec0 launch0.win.arr_inj c (V0 m c) (fun w => (dats m 0 c).arrAt w (cfgs 0).N) 8).trans (final_dev m c)

/-! ## Each row recast as a column is the specified result -/

theorem mean_column : shapeCast S131072x1 (meanRow m c) shapeCasts_S1x131072_S131072x1
    = mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, u, rfl⟩ : ∃ (b : Fin 131072) (u : Fin 1), i = ix2 b u := ⟨i 0, i 1, eq_ix2 i⟩
  exact shapeCast_row_col_apply (meanRow m c) _ b u 0

theorem dev_column : shapeCast S131072x1 (devRow m c) shapeCasts_S1x131072_S131072x1
    = sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  funext i
  obtain ⟨b, u, rfl⟩ : ∃ (b : Fin 131072) (u : Fin 1), i = ix2 b u := ⟨i 0, i 1, eq_ix2 i⟩
  exact shapeCast_row_col_apply (devRow m c) _ b u 0

/-! ## The two results after the lines that follow the region -/

theorem tail_mean : Pipeline.afterTail₀ cfgs (dats m) 0 (V0 m) [hostOps1] c main_v11
    = mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v11) = _
  after_results
  exact (congrArg (fun X => shapeCast S131072x1 X shapeCasts_S1x131072_S131072x1) (region_mean m c)).trans (mean_column m c)

theorem tail_dev : Pipeline.afterTail₀ cfgs (dats m) 0 (V0 m) [hostOps1] c main_v12
    = sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold Pipeline.afterTail₀
  show StableHlo.after hostOps1 _ (Proc.devRef .tc main_v12) = _
  after_results
  exact (congrArg (fun X => shapeCast S131072x1 X shapeCasts_S1x131072_S131072x1) (region_dev m c)).trans (dev_column m c)

/-! ## The run -/

/-- Every weakly fair execution of the kernel program ends with the first result at the means, the
    second at the deviations, and the nine arguments unchanged. -/
theorem run :
    θ_run (defs (F := Ideal)) (onTc (τ := τ) (main (F := Ideal))) ⟨m, fun _ => 0, ρ⟩ (fun r => ∀ c : Dev nD,
      r.2.mem ((c.tc : Thread nD τ).loc main_v11) = Cert.PolicyNet.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v12) = Cert.PolicyNet.sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v11 (Pipeline.mem_restRefs_of main_v11 (by decide) (by decide))).trans (tail_mean m c),
     ((h c).2 main_v12 (Pipeline.mem_restRefs_of main_v12 (by decide) (by decide))).trans (tail_dev m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c)⟩)
    (run_main m ρ)

end Cert.KernelIdeal.KValue

end
-- ==== Proof.RefHost.lean ====
/-
  The arrays the region reads, entry by entry, in terms of the arguments.

  Before the region the reference re-lays its nine arguments so that the batch is on the last axis:
    * the batch x [131072,256] and the two weight matrices w1, w2 [256,256] are transposed;
    * the two bias rows b1, b2 [1,256] are recast as columns [256,1] (same entries, same order);
    * the two heads' weight columns [256,1] are set side by side into [256,2] and transposed into
      [2,256]: row 0 is the mean head's weights, row 1 the deviation head's;
    * the two heads' biases [1,1] are set side by side into [1,2] and recast as the column [2,1].
  Each of the seven arrays the region stages is read here at an entry as one entry of one argument.
-/
import proofs.«170613_g2000106544280038_pallasbulk_1245_11_alg».proof.Proof.Gen.ReferenceIdeal.Frame
import proofs.«170613_g2000106544280038_pallasbulk_1245_11_alg».proof.Proof.LibRowColumn
import Idealize.ShloMosaic.Lib.ValueLayout

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.LibRowColumn

variable (m : (ℓ : Loc nD τ sig) → Buf (Elt Ideal) ℓ)

/-! ## Each staged array as the host operations' term of the arguments -/

/-- The batch, transposed: features × rows. -/
theorem v0_term (c : Dev nD) :
    (V m c main_v0 : S256x131072.Idx → EReal)
      = transpose S256x131072 [1, 0] (m ((c.tc : Thread nD τ).loc main_arg0) : S131072x256.Idx → EReal) transposes_S131072x256_S256x131072_1_0 := by
  dsimp only [Gen.V, Gen.V0]
  simp only [Gen.hostOps0, List.flatten_cons, List.flatten_nil, List.append_nil, List.cons_append, List.nil_append]
  after_results

/-- The first layer's weights, transposed: units × features. -/
theorem v1_term (c : Dev nD) :
    (V m c main_v1 : S256x256.Idx → EReal)
      = transpose S256x256 [1, 0] (m ((c.tc : Thread nD τ).loc main_arg1) : S256x256.Idx → EReal) transposes_S256x256_S256x256_1_0 := by
  dsimp only [Gen.V, Gen.V0]
  simp only [Gen.hostOps0, List.flatten_cons, List.flatten_nil, List.append_nil, List.cons_append, List.nil_append]
  after_results

/-- The first layer's bias row as a column. -/
theorem v2_term (c : Dev nD) :
    (V m c main_v2 : S256x1.Idx → EReal)
      = shapeCast S256x1 (m ((c.tc : Thread nD τ).loc main_arg2) : S1x256.Idx → EReal) shapeCasts_S1x256_S256x1 := by
  dsimp only [Gen.V, Gen.V0]
  simp only [Gen.hostOps0, List.flatten_cons, List.flatten_nil, List.append_nil, List.cons_append, List.nil_append]
  after_results
  rfl

/-- The second layer's weights, transposed: units × units of the first layer. -/
theorem v3_term (c : Dev nD) :
    (V m c main_v3 : S256x256.Idx → EReal)
      = transpose S256x256 [1, 0] (m ((c.tc : Thread nD τ).loc main_arg3) : S256x256.Idx → EReal) transposes_S256x256_S256x256_1_0 := by
  dsimp only [Gen.V, Gen.V0]
  simp only [Gen.hostOps0, List.flatten_cons, List.flatten_nil, List.append_nil, List.cons_append, List.nil_append]
  after_results

/-- The second layer's bias row as a column. -/
theorem v4_term (c : Dev nD) :
    (V m c main_v4 : S256x1.Idx → EReal)
      = shapeCast S256x1 (m ((c.tc : Thread nD τ).loc main_arg4) : S1x256.Idx → EReal) shapeCasts_S1x256_S256x1 := by
  dsimp only [Gen.V, Gen.V0]
  simp only [Gen.hostOps0, List.flatten_cons, List.flatten_nil, List.append_nil, List.cons_append, List.nil_append]
  after_results
  rfl

/-- The two heads' weight columns side by side, transposed: heads × units. -/
theorem v6_term (c : Dev nD) :
    (V m c main_v6 : S2x256.Idx → EReal)
      = transpose S2x256 [1, 0]
          (concatenate S256x2 1 [⟨S256x1, (m ((c.tc : Thread nD τ).loc main_arg5) : S256x1.Idx → EReal)⟩, ⟨S256x1, (m ((c.tc : Thread nD τ).loc main_arg7) : S256x1.Idx → EReal)⟩]
            concatenates_S256x1_S256x1_S256x2_d1) transposes_S256x2_S2x256_1_0 := by
  dsimp only [Gen.V, Gen.V0]
  simp only [Gen.hostOps0, List.flatten_cons, List.flatten_nil, List.append_nil, List.cons_append, List.nil_append]
  after_results

/-- The two heads' biases side by side, as a column. -/
theorem v8_term (c : Dev nD) :
    (V m c main_v8 : S2x1.Idx → EReal)
      = shapeCast S2x1
          (concatenate S1x2 1 [⟨S1x1, (m ((c.tc : Thread nD τ).loc main_arg6) : S1x1.Idx → EReal)⟩, ⟨S1x1, (m ((c.tc : Thread nD τ).loc main_arg8) : S1x1.Idx → EReal)⟩]
            concatenates_S1x1_S1x1_S1x2_d1) shapeCasts_S1x2_S2x1 := by
  dsimp only [Gen.V, Gen.V0]
  simp only [Gen.hostOps0, List.flatten_cons, List.flatten_nil, List.append_nil, List.cons_append, List.nil_append]
  after_results
  rfl

/-! ## The same, at an entry -/

/-- Feature s of row b of the batch. -/
theorem v0_apply (c : Dev nD) (s : Fin 256) (b : Fin 131072) :
    (V m c main_v0 : S256x131072.Idx → EReal) (ix2 s b) = (m ((c.tc : Thread nD τ).loc main_arg0) : S131072x256.Idx → EReal) (ix2 b s) := by
  rw [v0_term]; exact transpose_ix2_apply _ _ s b

/-- The weight of feature s into unit k' of the first layer. -/
theorem v1_apply (c : Dev nD) (k' s : Fin 256) :
    (V m c main_v1 : S256x256.Idx → EReal) (ix2 k' s) = (m ((c.tc : Thread nD τ).loc main_arg1) : S256x256.Idx → EReal) (ix2 s k') := by
  rw [v1_term]; exact transpose_ix2_apply _ _ k' s

/-- The bias of unit k' of the first layer. -/
theorem v2_apply (c : Dev nD) (k' : Fin 256) :
    (V m c main_v2 : S256x1.Idx → EReal) (ix2 k' 0) = (m ((c.tc : Thread nD τ).loc main_arg2) : S1x256.Idx → EReal) (ix2 0 k') := by
  rw [v2_term]; exact shapeCast_row_col_apply _ _ k' 0 0

/-- The weight of unit k' of the first layer into unit k of the second. -/
theorem v3_apply (c : Dev nD) (k k' : Fin 256) :
    (V m c main_v3 : S256x256.Idx → EReal) (ix2 k k') = (m ((c.tc : Thread nD τ).loc main_arg3) : S256x256.Idx → EReal) (ix2 k' k) := by
  rw [v3_term]; exact transpose_ix2_apply _ _ k k'

/-- The bias of unit k of the second layer. -/
theorem v4_apply (c : Dev nD) (k : Fin 256) :
    (V m c main_v4 : S256x1.Idx → EReal) (ix2 k 0) = (m ((c.tc : Thread nD τ).loc main_arg4) : S1x256.Idx → EReal) (ix2 0 k) := by
  rw [v4_term]; exact shapeCast_row_col_apply _ _ k 0 0

/-- Row 0 of the heads' weights: the mean head's. -/
theorem v6_apply_mean (c : Dev nD) (k : Fin 256) :
    (V m c main_v6 : S2x256.Idx → EReal) (ix2 0 k) = (m ((c.tc : Thread nD τ).loc main_arg5) : S256x1.Idx → EReal) (ix2 k 0) := by
  rw [v6_term]
  exact (transpose_ix2_apply _ _ (0 : Fin 2) k).trans (concat_cols_apply_left _ _ _ k)

/-- Row 1 of the heads' weights: the deviation head's. -/
theorem v6_apply_dev (c : Dev nD) (k : Fin 256) :
    (V m c main_v6 : S2x256.Idx → EReal) (ix2 1 k) = (m ((c.tc : Thread nD τ).loc main_arg7) : S256x1.Idx → EReal) (ix2 k 0) := by
  rw [v6_term]
  exact (transpose_ix2_apply _ _ (1 : Fin 2) k).trans (concat_cols_apply_right _ _ _ k)

/-- Entry 0 of the heads' biases: the mean head's. -/
theorem v8_apply_mean (c : Dev nD) :
    (V m c main_v8 : S2x1.Idx → EReal) (ix2 0 0) = (m ((c.tc : Thread nD τ).loc main_arg6) : S1x1.Idx → EReal) (ix2 0 0) := by
  rw [v8_term]
  exact (shapeCast_row_col_apply _ _ (0 : Fin 2) 0 0).trans (concat_cols_apply_left _ _ _ (0 : Fin 1))

/-- Entry 1 of the heads' biases: the deviation head's. -/
theorem v8_apply_dev (c : Dev nD) :
    (V m c main_v8 : S2x1.Idx → EReal) (ix2 1 0) = (m ((c.tc : Thread nD τ).loc main_arg8) : S1x1.Idx → EReal) (ix2 0 0) := by
  rw [v8_term]
  exact (shapeCast_row_col_apply _ _ (1 : Fin 2) 0 0).trans (concat_cols_apply_right _ _ _ (0 : Fin 1))

end Cert.ReferenceIdeal.RefValue

end
-- ==== Proof.RefBlocks.lean ====
/-
  The blocks the body is handed at a point of the grid, read back to the arrays they are cut from.

  The grid has 32 points.  Point t is handed columns 4096·t … 4096·t + 4095 of the transposed batch
  (all 256 rows of them) and, whole, the six small arrays: the two weight matrices, the two bias
  columns, the heads' weights and the heads' biases, whose block index is (0, 0) at every point.  It
  writes columns 4096·t … 4096·t + 4095 of the [2,131072] result.  An entry of a block sits in its
  array at  block index × block size + the entry's own coordinate  on each axis.
-/
import proofs.«170613_g2000106544280038_pallasbulk_1245_11_alg».proof.Proof.Gen.ReferenceIdeal.Frame
import Idealize.ShloMosaic.Lib.Pipeline.Value
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- The printed index maps, decided over the 32 points: the batch's window and the result's window
    move along the columns with the point, every other window stays at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column j of point t's block of the transposed batch is column 4096·t + j of that array. -/
theorem blk0_apply (c : Dev nD) (t : Fin cfg0.N) (s : Fin 256) (j : Fin 4096) (b : Fin 131072)
    (hb : b.val = 4096 * t.val + j.val) :
    (iblk m c 0 t : Vec Ideal S256x4096 .f32) (ix2 s j) = (V m c main_v0 : S256x131072.Idx → EReal) (ix2 s b) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t 0 * 256 + 1 * s.val = s.val; rw [e0]; omega
  | ⟨1, _⟩ => show win0_0.index t 1 * 4096 + 1 * j.val = b.val; rw [e1, hb]; omega

/-- The first layer's weights are handed over whole. -/
theorem blk1_apply (c : Dev nD) (t : Fin cfg0.N) (k' : Fin 256) (s : Fin 256) :
    (iblk m c 1 t : Vec Ideal S256x256 .f32) (ix2 k' s) = (V m c main_v1 : S256x256.Idx → EReal) (ix2 k' s) := by
  obtain ⟨-, -, e0, e1, -⟩ := idx_facts t
  unfold iblk
  rw [View.read_apply]
  show V m c main_v1 _ = V m c main_v1 _
  refine congrArg (V m c main_v1) ?_
  funext a
  apply Fin.ext
  match a with
  | ⟨0, _⟩ => show win0_1.index t 0 * 256 + 1 * k'.val = k'.val; rw [e0]; omega
  | ⟨1, _⟩ => show win0_1.index t 1 * 256 + 1 * s.val = s.val; rw [e1]; omega

/-- The first layer's bias column is handed over whole. -/
theorem blk2_apply (c : Dev nD) (t : Fin cfg0.N) (k' : Fin 256) (u : Fin 1) :
    (iblk m c 2 t : Vec Ideal S256x1 .f32) (ix2 k' u) = (V m c main_v2 : S256x1.Idx → EReal) (ix2 k' u) := by
  obtain ⟨-, -, -, -, e0, e1, -⟩ := idx_facts t
  unfold iblk
  rw [View.read_apply]
  show V m c main_v2 _ = V m c main_v2 _
  refine congrArg (V m c main_v2) ?_
  funext a
  apply Fin.ext
  match a with
  | ⟨0, _⟩ => show win0_2.index t 0 * 256 + 1 * k'.val = k'.val; rw [e0]; omega
  | ⟨1, _⟩ => show win0_2.index t 1 * 1 + 1 * u.val = u.val; rw [e1]; omega

/-- The second layer's weights are handed over whole. -/
theorem blk3_apply (c : Dev nD) (t : Fin cfg0.N) (k : Fin 256) (k' : Fin 256) :
    (iblk m c 3 t : Vec Ideal S256x256 .f32) (ix2 k k') = (V m c main_v3 : S256x256.Idx → EReal) (ix2 k k') := by
  obtain ⟨-, -, -, -, -, -, e0, e1, -⟩ := idx_facts t
  unfold iblk
  rw [View.read_apply]
  show V m c main_v3 _ = V m c main_v3 _
  refine congrArg (V m c main_v3) ?_
  funext a
  apply Fin.ext
  match a with
  | ⟨0, _⟩ => show win0_3.index t 0 * 256 + 1 * k.val = k.val; rw [e0]; omega
  | ⟨1, _⟩ => show win0_3.index t 1 * 256 + 1 * k'.val = k'.val; rw [e1]; omega

/-- The second layer's bias column is handed over whole. -/
theorem blk4_apply (c : Dev nD) (t : Fin cfg0.N) (k : Fin 256) (u : Fin 1) :
    (iblk m c 4 t : Vec Ideal S256x1 .f32) (ix2 k u) = (V m c main_v4 : S256x1.Idx → EReal) (ix2 k u) := by
  obtain ⟨-, -, -, -, -, -, -, -, e0, e1, -⟩ := idx_facts t
  unfold iblk
  rw [View.read_apply]
  show V m c main_v4 _ = V m c main_v4 _
  refine congrArg (V m c main_v4) ?_
  funext a
  apply Fin.ext
  match a with
  | ⟨0, _⟩ => show win0_4.index t 0 * 256 + 1 * k.val = k.val; rw [e0]; omega
  | ⟨1, _⟩ => show win0_4.index t 1 * 1 + 1 * u.val = u.val; rw [e1]; omega

/-- The heads' weights are handed over whole. -/
theorem blk5_apply (c : Dev nD) (t : Fin cfg0.N) (r : Fin 2) (k : Fin 256) :
    (iblk m c 5 t : Vec Ideal S2x256 .f32) (ix2 r k) = (V m c main_v6 : S2x256.Idx → EReal) (ix2 r k) := by
  obtain ⟨-, -, -, -, -, -, -, -, -, -, e0, e1, -⟩ := idx_facts t
  unfold iblk
  rw [View.read_apply]
  show V m c main_v6 _ = V m c main_v6 _
  refine congrArg (V m c main_v6) ?_
  funext a
  apply Fin.ext
  match a with
  | ⟨0, _⟩ => show win0_5.index t 0 * 2 + 1 * r.val = r.val; rw [e0]; omega
  | ⟨1, _⟩ => show win0_5.index t 1 * 256 + 1 * k.val = k.val; rw [e1]; omega

/-- The heads' biases are handed over whole. -/
theorem blk6_apply (c : Dev nD) (t : Fin cfg0.N) (r : Fin 2) (u : Fin 1) :
    (iblk m c 6 t : Vec Ideal S2x1 .f32) (ix2 r u) = (V m c main_v8 : S2x1.Idx → EReal) (ix2 r u) := by
  obtain ⟨-, -, -, -, -, -, -, -, -, -, -, -, e0, e1, -⟩ := idx_facts t
  unfold iblk
  rw [View.read_apply]
  show V m c main_v8 _ = V m c main_v8 _
  refine congrArg (V m c main_v8) ?_
  funext a
  apply Fin.ext
  match a with
  | ⟨0, _⟩ => show win0_6.index t 0 * 2 + 1 * r.val = r.val; rw [e0]; omega
  | ⟨1, _⟩ => show win0_6.index t 1 * 1 + 1 * u.val = u.val; rw [e1]; omega

/-- Entry (r, j) of the block point t writes sits at (r, 4096·t + j) of the result. -/
theorem out_emb (t : Fin cfg0.N) (r : Fin 2) (j : Fin 4096) (b : Fin 131072) (hb : b.val = 4096 * t.val + j.val) :
    ((cfg0.win 7).blk t).view.emb (ix2 r j : S2x4096.Idx) = (ix2 r b : S2x131072.Idx) := by
  obtain ⟨-, -, -, -, -, -, -, -, -, -, -, -, -, -, e0, e1⟩ := idx_facts t
  funext a
  apply Fin.ext
  match a with
  | ⟨0, _⟩ => show win0_7.index t 0 * 2 + 1 * r.val = r.val; rw [e0]; omega
  | ⟨1, _⟩ => show win0_7.index t 1 * 4096 + 1 * j.val = b.val; rw [e1, hb]; omega

end Cert.ReferenceIdeal.RefValue

end
-- ==== Proof.RefPayload.lean ====
/-
  What the reference's body computes on one block of the batch, entry by entry.

  The reference lays everything out with the batch on the LAST axis.  A block `x0` is 4096
  consecutive rows of the batch stored features × rows; the weights `x1`, `x3` are stored
  units × inputs, the two heads' weights `x5` heads × units, and the biases `x2`, `x4`, `x6` are
  columns.  Every layer is therefore one plain product  W · X  plus a bias column repeated along the
  rows of the batch, and entry (k', j) of the first hidden layer is
      max (∑ s, x1[k', s] · x0[s, j] + x2[k']) 0 .
  So column j of the logits is the network `Cert.PolicyNet.net` applied to column j of the block,
  row 0 with the mean head's weights and row 1 with the deviation head's.  The stored block keeps
  2 · tanh of the logit in row 0 and the softplus of the logit plus 1e-5 in row 1: the row is chosen
  by comparing the row number with 0.
-/
import proofs.«170613_g2000106544280038_pallasbulk_1245_11_alg».proof.Proof.Gen.ReferenceIdeal.Skeleton
import proofs.«170613_g2000106544280038_pallasbulk_1245_11_alg».proof.Proof.Spec
import proofs.«170613_g2000106544280038_pallasbulk_1245_11_alg».proof.Proof.LibMatmulFin
import Idealize.ShloMosaic.Lib.Pipeline.Value

noncomputable section

namespace Cert.ReferenceIdeal.RefValue

open Idealize.ShloMosaic Idealize.ShloMosaic.ValueIdx Cert.LibMatmulFin
open Cert.ReferenceIdeal Cert.ReferenceIdeal.Gen Cert.PolicyNet

/-! ## The stages of the logits -/

/-- A rectified affine layer on a block: weights (units × inputs) times activations (inputs × rows),
    plus the bias column, rectified. -/
def dense (W : Vec Ideal S256x256 .f32) (X : FVec Ideal S256x4096 .f32) (B : Vec Ideal S256x1 .f32) :
    FVec Ideal S256x4096 .f32 :=
  maximumf (addf (matmul dot_S256x256_S256x4096_S256x4096_1_0_0_1_n_n none
      (shapeCast S256x256 W shapeCasts_S256x256_S256x256 : FVec Ideal S256x256 .f32) X
      (constant S256x4096 .f32 0x00000000#32))
    (broadcastTo S256x4096 (shapeCast S256x1 B shapeCasts_S256x1_S256x1 : FVec Ideal S256x1 .f32) broadcasts_S256x1_S256x4096))
    (broadcast S256x4096 (Scalar.ofBits .f32 0x00000000#32))

/-- The two heads' logits from the second hidden layer, head × row. -/
def heads (H : FVec Ideal S256x4096 .f32) (x5 : Vec Ideal S2x256 .f32) (x6 : Vec Ideal S2x1 .f32) :
    FVec Ideal S2x4096 .f32 :=
  addf (matmul dot_S2x256_S256x4096_S2x4096_1_0_0_1_n_n none
      (shapeCast S2x256 x5 shapeCasts_S2x256_S2x256 : FVec Ideal S2x256 .f32) H
      (constant S2x4096 .f32 0x00000000#32))
    (broadcastTo S2x4096 (shapeCast S2x1 x6 shapeCasts_S2x1_S2x1 : FVec Ideal S2x1 .f32) broadcasts_S2x1_S2x4096)

/-- The body's logits are the stages composed: two rectified layers, then the heads. -/
theorem logits_eq (x0 : Vec Ideal S256x4096 .f32) (x1 : Vec Ideal S256x256 .f32) (x2 : Vec Ideal S256x1 .f32)
    (x3 : Vec Ideal S256x256 .f32) (x4 : Vec Ideal S256x1 .f32) (x5 : Vec Ideal S2x256 .f32) (x6 : Vec Ideal S2x1 .f32) :
    k0_pay2 x0 x1 x2 x3 x4 x5 x6
      = heads (dense x3 (dense x1 (shapeCast S256x4096 x0 shapeCasts_S256x4096_S256x4096 : FVec Ideal S256x4096 .f32) x2) x4) x5 x6 := rfl

/-! ## Each stage at an entry -/

/-- Entry (k, j) of a rectified layer: row k of the weights against column j of the activations,
    plus the bias of unit k, rectified. -/
theorem dense_apply (W : Vec Ideal S256x256 .f32) (X : FVec Ideal S256x4096 .f32) (B : Vec Ideal S256x1 .f32)
    (k : Fin 256) (j : Fin 4096) :
    dense W X B (ix2 k j) = relu ((∑ s : Fin 256, W (ix2 k s) * X (ix2 s j)) + B (ix2 k 0)) := by
  unfold dense relu
  simp only [shapeCast_self]
  exact congrArg₂ max (congrArg₂ (· + ·)
    (matmul_zero_apply_fin dot_S256x256_S256x4096_S256x4096_1_0_0_1_n_n 256 rfl rfl none (W : FVec Ideal S256x256 .f32)
      X (ix2 k j) (fun s => ix2 k s) (fun s => ix2 s j)
      (fun s => idx2_ext _ _ rfl (contrEquiv1_symm_val dot_S256x256_S256x4096_S256x4096_1_0_0_1_n_n 256 rfl rfl s))
      (fun s => idx2_ext _ _ (contrEquiv1_symm_val dot_S256x256_S256x4096_S256x4096_1_0_0_1_n_n 256 rfl rfl s) rfl))
    (broadcastTo_apply B broadcasts_S256x1_S256x4096 (ix2 k j) (ix2 k 0)
      (fun a => by match a with | ⟨0, _⟩ => rfl | ⟨1, _⟩ => rfl))) rfl

/-- Entry (r, j) of the logits: head r's weights against column j of the second layer, plus its bias. -/
theorem heads_apply (H : FVec Ideal S256x4096 .f32) (x5 : Vec Ideal S2x256 .f32) (x6 : Vec Ideal S2x1 .f32)
    (r : Fin 2) (j : Fin 4096) :
    heads H x5 x6 (ix2 r j) = (∑ k : Fin 256, x5 (ix2 r k) * H (ix2 k j)) + x6 (ix2 r 0) := by
  unfold heads
  simp only [shapeCast_self]
  exact congrArg₂ (· + ·)
    (matmul_zero_apply_fin dot_S2x256_S256x4096_S2x4096_1_0_0_1_n_n 256 rfl rfl none (x5 : FVec Ideal S2x256 .f32)
      H (ix2 r j) (fun k => ix2 r k) (fun k => ix2 k j)
      (fun s => idx2_ext _ _ rfl (contrEquiv1_symm_val dot_S2x256_S256x4096_S2x4096_1_0_0_1_n_n 256 rfl rfl s))
      (fun s => idx2_ext _ _ (contrEquiv1_symm_val dot_S2x256_S256x4096_S2x4096_1_0_0_1_n_n 256 rfl rfl s) rfl))
    (broadcastTo_apply x6 broadcasts_S2x1_S2x4096 (ix2 r j) (ix2 r 0)
      (fun a => by match a with | ⟨0, _⟩ => rfl | ⟨1, _⟩ => rfl))

/-! ## The logits of a block are the network on its columns -/

/-- Entry (r, j) of the body's logits is head r of the network on column j of the block. -/
theorem logits_apply (x0 : Vec Ideal S256x4096 .f32) (x1 : Vec Ideal S256x256 .f32) (x2 : Vec Ideal S256x1 .f32)
    (x3 : Vec Ideal S256x256 .f32) (x4 : Vec Ideal S256x1 .f32) (x5 : Vec Ideal S2x256 .f32) (x6 : Vec Ideal S2x1 .f32)
    (r : Fin 2) (j : Fin 4096) :
    k0_pay2 x0 x1 x2 x3 x4 x5 x6 (ix2 r j)
      = net (fun k' s => x1 (ix2 k' s)) (fun k' => x2 (ix2 k' 0)) (fun k k' => x3 (ix2 k k')) (fun k => x4 (ix2 k 0))
          (fun k => x5 (ix2 r k)) (x6 (ix2 r 0)) (fun s => x0 (ix2 s j)) := by
  rw [logits_eq, heads_apply]
  unfold net
  simp only [dense_apply, shapeCast_self]

/-! ## What the body stores -/

/-- Entry (r, j) of the stored block: in row 0 the mean head's squashing of its logit, in row 1 the
    deviation head's softplus of its logit. -/
theorem stored_apply (x0 : Vec Ideal S256x4096 .f32) (x1 : Vec Ideal S256x256 .f32) (x2 : Vec Ideal S256x1 .f32)
    (x3 : Vec Ideal S256x256 .f32) (x4 : Vec Ideal S256x1 .f32) (x5 : Vec Ideal S2x256 .f32) (x6 : Vec Ideal S2x1 .f32)
    (r : Fin 2) (j : Fin 4096) :
    k0_pay1 (k0_pay3 x0 x1 x2 x3 x4 x5 x6) (k0_pay4 x0 x1 x2 x3 x4 x5 x6) (k0_pay5 x0 x1 x2 x3 x4 x5 x6) (ix2 r j)
      = if r.val = 0 then muOf (k0_pay2 x0 x1 x2 x3 x4 x5 x6 (ix2 r j)) else sigmaOf (k0_pay2 x0 x1 x2 x3 x4 x5 x6 (ix2 r j)) := by
  unfold k0_pay1 k0_pay3 k0_pay4 k0_pay5
  refine (select_apply _ _ _ _).trans ?_
  refine (congrArg (fun w => Scalar.select w _ _)
    (congrArg (fun v => IntOp.cmpi .eq v 0#32) (iota_single_apply .tc S2x4096 32 0 iota_S2x4096_d0_w32 (ix2 r j)))).trans ?_
  exact select_eq0 r.val r.isLt _ _

end Cert.ReferenceIdeal.RefValue

end
-- ==== Proof.RefPoint.lean ====
/-
  One stored entry, from the arguments.

  The region's result is a [2,131072] array: row 0 holds the mean of every row of the batch and
  row 1 its deviation.  Take any seven blocks `x0 … x6` whose entries are the arguments' entries in
  the re-laid order — column j of `x0` is row b of the batch, `x1` and `x3` are the weight matrices
  transposed, `x2` and `x4` the bias rows as columns, row 0 / row 1 of `x5` and `x6` the mean / the
  deviation head's weights and bias.  Then entry (r, j) of what the body stores is entry (r, b) of
  that array.  Nothing is used but the definitions: both sides are the same sums in the same order.
-/
import proofs.«170613_g2000106544280038_pallasbulk_1245_11_alg».proof.Proof.RefPayload

noncomputable section

namespace Cert.ReferenceIdeal.RefValue

open Idealize.ShloMosaic Idealize.ShloMosaic.ValueIdx
open Cert.ReferenceIdeal Cert.ReferenceIdeal.Gen Cert.PolicyNet

/-- The region's result as one array of the arguments: row 0 the mean of every row of the batch,
    row 1 the deviation. -/
def headRows (x : Mat 131072 256) (w1 : Mat 256 256) (b1 : Mat 1 256) (w2 : Mat 256 256) (b2 : Mat 1 256)
    (wmu : Mat 256 1) (bmu : Mat 1 1) (wsig : Mat 256 1) (bsig : Mat 1 1) : Mat 2 131072 :=
  fun i => if (i 0).val = 0 then muOf (logit x w1 b1 w2 b2 wmu bmu (i 1))
    else sigmaOf (logit x w1 b1 w2 b2 wsig bsig (i 1))

/-- Row 0 of the result is the mean. -/
theorem headRows_mean (x : Mat 131072 256) (w1 : Mat 256 256) (b1 : Mat 1 256) (w2 : Mat 256 256) (b2 : Mat 1 256)
    (wmu : Mat 256 1) (bmu : Mat 1 1) (wsig : Mat 256 1) (bsig : Mat 1 1) (b : Fin 131072) :
    headRows x w1 b1 w2 b2 wmu bmu wsig bsig (ix2 0 b) = muOf (logit x w1 b1 w2 b2 wmu bmu b) := rfl

/-- Row 1 of the result is the deviation. -/
theorem headRows_dev (x : Mat 131072 256) (w1 : Mat 256 256) (b1 : Mat 1 256) (w2 : Mat 256 256) (b2 : Mat 1 256)
    (wmu : Mat 256 1) (bmu : Mat 1 1) (wsig : Mat 256 1) (bsig : Mat 1 1) (b : Fin 131072) :
    headRows x w1 b1 w2 b2 wmu bmu wsig bsig (ix2 1 b) = sigmaOf (logit x w1 b1 w2 b2 wsig bsig b) := rfl

/-- Entry (r, j) of the stored block is entry (r, b) of the result, when the blocks hold the
    arguments' entries in the re-laid order and column j of the batch's block is row b of the batch. -/
theorem stored_eq_headRows (x0 : Vec Ideal S256x4096 .f32) (x1 : Vec Ideal S256x256 .f32) (x2 : Vec Ideal S256x1 .f32)
    (x3 : Vec Ideal S256x256 .f32) (x4 : Vec Ideal S256x1 .f32) (x5 : Vec Ideal S2x256 .f32) (x6 : Vec Ideal S2x1 .f32)
    (x : Mat 131072 256) (w1 : Mat 256 256) (b1 : Mat 1 256) (w2 : Mat 256 256) (b2 : Mat 1 256)
    (wmu : Mat 256 1) (bmu : Mat 1 1) (wsig : Mat 256 1) (bsig : Mat 1 1)
    (r : Fin 2) (j : Fin 4096) (b : Fin 131072)
    (h0 : ∀ s : Fin 256, x0 (ix2 s j) = x (ix2 b s))
    (h1 : ∀ k' s : Fin 256, x1 (ix2 k' s) = w1 (ix2 s k'))
    (h2 : ∀ k' : Fin 256, x2 (ix2 k' 0) = b1 (ix2 0 k'))
    (h3 : ∀ k k' : Fin 256, x3 (ix2 k k') = w2 (ix2 k' k))
    (h4 : ∀ k : Fin 256, x4 (ix2 k 0) = b2 (ix2 0 k))
    (h5m : ∀ k : Fin 256, x5 (ix2 0 k) = wmu (ix2 k 0)) (h5s : ∀ k : Fin 256, x5 (ix2 1 k) = wsig (ix2 k 0))
    (h6m : x6 (ix2 0 0) = bmu (ix2 0 0)) (h6s : x6 (ix2 1 0) = bsig (ix2 0 0)) :
    k0_pay1 (k0_pay3 x0 x1 x2 x3 x4 x5 x6) (k0_pay4 x0 x1 x2 x3 x4 x5 x6) (k0_pay5 x0 x1 x2 x3 x4 x5 x6) (ix2 r j)
      = headRows x w1 b1 w2 b2 wmu bmu wsig bsig (ix2 r b) := by
  rw [stored_apply, logits_apply]
  simp only [h0, h1, h2, h3, h4]
  have hr : r = 0 ∨ r = 1 := by
    rcases r with ⟨_ | _ | n, h⟩
    · exact Or.inl rfl
    · exact Or.inr rfl
    · omega
  rcases hr with rfl | rfl
  · refine (if_pos rfl).trans ?_
    rw [headRows_mean]
    unfold logit
    simp only [h5m, h6m]
  · refine (if_neg (by decide)).trans ?_
    rw [headRows_dev]
    unfold logit
    simp only [h5s, h6s]

end Cert.ReferenceIdeal.RefValue

end
-- ==== Proof.RefArray.lean ====
/-
  From the blocks to the whole result array.

  Point t of the grid writes back the block it stored: columns 4096·t … 4096·t + 4095 of the
  [2,131072] result.  By the entry-by-entry reading of the body, of the blocks it is handed and of
  the arrays those blocks are cut from, that block is exactly the same columns of ONE array of the
  arguments, `result`: row 0 the mean and row 1 the deviation of every row of the batch.  Column i
  of the result lies in the block of point i / 4096, and every point writes back, so the 32 blocks
  cover the array and it ends holding `result`.
-/
import proofs.«170613_g2000106544280038_pallasbulk_1245_11_alg».proof.Proof.RefHost
import proofs.«170613_g2000106544280038_pallasbulk_1245_11_alg».proof.Proof.RefBlocks
import proofs.«170613_g2000106544280038_pallasbulk_1245_11_alg».proof.Proof.RefPoint

noncomputable section

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.PolicyNet

variable (m : (ℓ : Loc nD τ sig) → Buf (Elt Ideal) ℓ)

/-- The region's result on core `c`, as one array of that core's nine arguments. -/
abbrev result (c : Dev nD) : S2x131072.Idx → EReal :=
  headRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))

/-- The zero offsets of a whole-block access, however they are spelt. -/
theorem zero_offsets : (![0, 0] : Fin 2 → Nat) = fun _ => 0 := funext fun a => by fin_cases a <;> rfl

/-- What point `t` writes back is block `t` of `result`. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold out0_7
  rw [View.canon_unit_zero zero_offsets]
  simp only [View.ld_unit_zero (S := S256x4096) zero_offsets, View.ld_unit_zero (S := S256x256) zero_offsets,
    View.ld_unit_zero (S := S256x1) zero_offsets, View.ld_unit_zero (S := S2x256) zero_offsets,
    View.ld_unit_zero (S := S2x1) zero_offsets]
  refine funext fun (y : S2x4096.Idx) => ?_
  obtain ⟨r, j, rfl⟩ : ∃ (r : Fin 2) (j : Fin 4096), y = ix2 r j := ⟨y 0, y 1, eq_ix2 y⟩
  have ht : t.val < 32 := Nat.lt_of_lt_of_eq t.isLt (show cfg0.N = 32 from N_0)
  obtain ⟨b, hb⟩ : ∃ b : Fin 131072, b.val = 4096 * t.val + j.val := ⟨⟨4096 * t.val + j.val, by omega⟩, rfl⟩
  rw [View.read_apply]
  show _ = result m c (((cfg0.win 7).blk t).view.emb (ix2 r j))
  rw [out_emb t r j b hb]
  exact stored_eq_headRows (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) r j b
    (fun s => (blk0_apply m c t s j b hb).trans (v0_apply m c s b))
    (fun k' s => (blk1_apply m c t k' s).trans (v1_apply m c k' s))
    (fun k' => (blk2_apply m c t k' 0).trans (v2_apply m c k'))
    (fun k k' => (blk3_apply m c t k k').trans (v3_apply m c k k'))
    (fun k => (blk4_apply m c t k 0).trans (v4_apply m c k))
    (fun k => (blk5_apply m c t 0 k).trans (v6_apply_mean m c k))
    (fun k => (blk5_apply m c t 1 k).trans (v6_apply_dev m c k))
    ((blk6_apply m c t 0 0).trans (v8_apply_mean m c))
    ((blk6_apply m c t 1 0).trans (v8_apply_dev m c))

/-- An index of the result is in point `t`'s block iff each coordinate is in the block's range on its axis. -/
theorem mem_blk (t : Fin cfg0.N) (i : S2x131072.Idx) :
    i ∈ ((cfg0.win 7).blk t).view.set ↔ ∀ a : Fin 2, win0_7.index t a * S2x4096.size a ≤ (i a).val
      ∧ (i a).val < win0_7.index t a * S2x4096.size a + S2x4096.size a := by
  show i ∈ ((View.whole main_v9).slice (win0_7.rect t)).set ↔ _
  rw [View.set_slice_whole, Rect.mem_set_unit]
  exact Iff.rfl

/-- Column i of the result is written back by point i / 4096. -/
theorem covered (i : S2x131072.Idx) :
    ∃ t : Fin cfg0.N, (cfg0.win 7).flush t = true ∧ i ∈ ((cfg0.win 7).blk t).view.set := by
  have hi0 : (i 0).val < 2 := idx2_lt0 i
  have hi1 : (i 1).val < 131072 := idx2_lt1 i
  have hN : cfg0.N = 32 := N_0
  obtain ⟨t, ht⟩ : ∃ t : Fin cfg0.N, t.val = (i 1).val / 4096 := ⟨⟨(i 1).val / 4096, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t 0 * 2 ≤ (i 0).val ∧ (i 0).val < win0_7.index t 0 * 2 + 2
    rw [e0]; omega
  | ⟨1, _⟩ =>
    show win0_7.index t 1 * 4096 ≤ (i 1).val ∧ (i 1).val < win0_7.index t 1 * 4096 + 4096
    rw [e1, ht]; omega

/-- So the result array ends holding `result`. -/
theorem final (c : Dev nD) : (dats m 0 c).arrAt 7 cfg0.N = result m c :=
  (dats m 0 c).arrAt_eq_of_cover 7 (result m c) (fun t _ => flushed_eq m c t) covered

end Cert.ReferenceIdeal.RefValue

end
-- ==== Proof.RefTail.lean ====
/-
  The two results, from the region's array.

  After the region the reference cuts row 0 out of the [2,131072] array, flattens it to a vector of
  131072 entries and stands it up as a [131072,1] column: the first result, the mean.  Row 1 goes the
  same way into the second result, the deviation.  None of the three steps moves an entry out of
  order — entry b of the column is entry (r, b) of the array — so with the array known
  (`final`) the results are `Cert.PolicyNet.mu` and `Cert.PolicyNet.sigma` of the arguments.
-/
import proofs.«170613_g2000106544280038_pallasbulk_1245_11_alg».proof.Proof.RefArray
import Idealize.ShloMosaic.Lib.ValueLayout

noncomputable section

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.PolicyNet

/-- A vector [a] recast as a column [a,1] keeps its entries in order. -/
theorem shapeCast_vec_col_apply {a : ℕ} {α : Type} (x : (⟨1, ![a]⟩ : Shape).Idx → α)
    (h : (⟨1, ![a]⟩ : Shape).ShapeCasts ⟨2, ![a, 1]⟩) (b : Fin a) (u : Fin 1) :
    shapeCast ⟨2, ![a, 1]⟩ x h (ix2 b u) = x (ix1 b) :=
  shapeCast_apply x h _ _ (by
    have hu : u.val = 0 := by omega
    rw [Shape.rowMajor_val_two, Shape.rowMajor_val_one]
    show b.val = b.val * 1 + u.val
    omega)

/-- Row r of a two-row array, cut out, flattened and stood up as a column, has the row's entry b at b. -/
theorem row_column_apply (X : S2x131072.Idx → EReal) (r : Fin 2)
    (hs : S2x131072.Slices ![r.val, 0] S1x131072) (b : Fin 131072) (u : Fin 1) :
    shapeCast S131072x1
        (shapeCast S131072 (extractStridedSlice S1x131072 ![r.val, 0] X hs : S1x131072.Idx → EReal)
          shapeCasts_S1x131072_S131072 : S131072.Idx → EReal)
        shapeCasts_S131072_S131072x1 (ix2 b u) = X (ix2 r b) :=
  (shapeCast_vec_col_apply _ _ b u).trans
    ((shapeCast_1a_a_apply _ _ b).trans (slice2_axis0_apply r.val X hs (0 : Fin 1) b r rfl))

variable (m : (ℓ : Loc nD τ sig) → Buf (Elt Ideal) ℓ)

/-- The first result as the host operations' term of the region's array: row 0, flattened, as a column. -/
theorem tail_mean_term (c : Dev nD) :
    Pipeline.afterTail₀ cfgs (dats m) 0 (V0 m) [hostOps1] c main_v12
      = shapeCast S131072x1
          (shapeCast S131072
            (extractStridedSlice S1x131072 ![0, 0] (result m c) slices_S2x131072_S1x131072_0_0 : S1x131072.Idx → EReal)
            shapeCasts_S1x131072_S131072 : S131072.Idx → EReal)
          shapeCasts_S131072_S131072x1 := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v9)
      = result m c from (Pipeline.withArrays_arr spec0 launch0.win.arr_inj c _ _ 7).trans (final m c)]
  rfl

/-- The second result likewise: row 1, flattened, as a column. -/
theorem tail_dev_term (c : Dev nD) :
    Pipeline.afterTail₀ cfgs (dats m) 0 (V0 m) [hostOps1] c main_v15
      = shapeCast S131072x1
          (shapeCast S131072
            (extractStridedSlice S1x131072 ![1, 0] (result m c) slices_S2x131072_S1x131072_1_0 : S1x131072.Idx → EReal)
            shapeCasts_S1x131072_S131072 : S131072.Idx → EReal)
          shapeCasts_S131072_S131072x1 := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v9)
      = result m c from (Pipeline.withArrays_arr spec0 launch0.win.arr_inj c _ _ 7).trans (final m c)]
  rfl

/-- The first result is the mean of every row of the batch. -/
theorem tail_mean (c : Dev nD) :
    Pipeline.afterTail₀ cfgs (dats m) 0 (V0 m) [hostOps1] c main_v12
      = mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_mean_term]
  refine funext fun (i : S131072x1.Idx) => ?_
  obtain ⟨b, u, rfl⟩ : ∃ (b : Fin 131072) (u : Fin 1), i = ix2 b u := ⟨i 0, i 1, eq_ix2 i⟩
  refine (row_column_apply (result m c) 0 slices_S2x131072_S1x131072_0_0 b u).trans ?_
  exact headRows_mean _ _ _ _ _ _ _ _ _ b

/-- The second result is the deviation of every row of the batch. -/
theorem tail_dev (c : Dev nD) :
    Pipeline.afterTail₀ cfgs (dats m) 0 (V0 m) [hostOps1] c main_v15
      = sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  rw [tail_dev_term]
  refine funext fun (i : S131072x1.Idx) => ?_
  obtain ⟨b, u, rfl⟩ : ∃ (b : Fin 131072) (u : Fin 1), i = ix2 b u := ⟨i 0, i 1, eq_ix2 i⟩
  refine (row_column_apply (result m c) 1 slices_S2x131072_S1x131072_1_0 b u).trans ?_
  exact headRows_dev _ _ _ _ _ _ _ _ _ b

end Cert.ReferenceIdeal.RefValue

end
-- ==== Proof.RefRun.lean ====
/-
  The reference's run, read: both results and the nine arguments after it.

  Every weakly fair execution of the reference on the TensorCores terminates; in every final state
  the first result is the mean `Cert.PolicyNet.mu` and the second the deviation
  `Cert.PolicyNet.sigma` of that core's arguments, and the nine arguments are as they were
  launched.  The two results are buffers the region does not stage, so the run leaves them at what
  the host operations after the region compute from the region's array (`tail_mean`, `tail_dev`);
  no operation, before or after the region, writes an argument.
-/
import proofs.«170613_g2000106544280038_pallasbulk_1245_11_alg».proof.Proof.RefTail

noncomputable section

namespace Cert.ReferenceIdeal.RefValue

open Idealize.ShloMosaic Idealize.ShloMosaic.TcCoe Idealize.SL.Sem
open Cert.ReferenceIdeal Cert.ReferenceIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Cert.PolicyNet.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v15) = Cert.PolicyNet.sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v12 (Pipeline.mem_restRefs_of main_v12 (by decide) (by decide))).trans (tail_mean m c),
      ((h c).2 main_v15 (Pipeline.mem_restRefs_of main_v15 (by decide) (by decide))).trans (tail_dev m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (Gen.run_main m ρ)

end Cert.ReferenceIdeal.RefValue

end
-- ==== Proof.lean ====
/-
  A fused policy network against its batch-on-lanes reference.

  Both programs apply one small network to each of the 131072 rows of a batch x : [131072, 256]:
      h1 = max (x W1 + b1) 0,   h2 = max (h1 W2 + b2) 0,   z = h2 [w_mu w_sig] + [b_mu b_sig],
      mean = 2 tanh z_0,   deviation = max z_1 0 + log (1 + exp (0 - |z_1|)) + 1e-5,
  and return the means and the deviations as two columns [131072, 1].

  They differ only in how the work is laid out.  The kernel keeps the batch as it is given, cuts it
  into eight blocks of 16384 rows, contracts the features of each block against the first axis of
  the first-layer weights, narrows every matrix-unit operand to half precision, and stores the two
  heads as two separate rows.  The reference first transposes the batch, cuts it into thirty-two
  blocks of 4096 columns, multiplies in single precision, computes both squashings for both heads
  and keeps one per row of a two-row result, which the host then splits.

  On the extended reals a change of float format is the identity and a matrix product is a finite
  sum, so entry b of either program's first result is  muOf (logit … b)  and of its second
  sigmaOf (logit … b)  (Proof/Spec.lean) — the same sums of the same products in the same order.
  No algebraic law is used, hence no finiteness: the precondition is never opened.

  The three frame claims are the generated frames.  The idealization rewrote nothing, so the
  preserves claim is trivial.  The algebraic claim puts the two runs side by side: the kernel
  program's run (Proof/KRun.lean) and the reference program's (Proof/RefRun.lean) end at one and
  the same pair of functions of arguments that agree.
-/
import proofs.«170613_g2000106544280038_pallasbulk_1245_11_alg».proof.Defs
import proofs.«170613_g2000106544280038_pallasbulk_1245_11_alg».proof.Proof.Gen.Kernel
import proofs.«170613_g2000106544280038_pallasbulk_1245_11_alg».proof.Proof.Gen.Kernel.Skeleton
import proofs.«170613_g2000106544280038_pallasbulk_1245_11_alg».proof.Proof.Gen.Kernel.Launch
import proofs.«170613_g2000106544280038_pallasbulk_1245_11_alg».proof.Proof.Gen.Kernel.Points
import proofs.«170613_g2000106544280038_pallasbulk_1245_11_alg».proof.Proof.Gen.Kernel.Frame
import proofs.«170613_g2000106544280038_pallasbulk_1245_11_alg».proof.Proof.Gen.KernelIdeal
import proofs.«170613_g2000106544280038_pallasbulk_1245_11_alg».proof.Proof.Gen.KernelIdeal.Skeleton
import proofs.«170613_g2000106544280038_pallasbulk_1245_11_alg».proof.Proof.Gen.KernelIdeal.Launch
import proofs.«170613_g2000106544280038_pallasbulk_1245_11_alg».proof.Proof.Gen.KernelIdeal.Points
import proofs.«170613_g2000106544280038_pallasbulk_1245_11_alg».proof.Proof.Gen.KernelIdeal.Frame
import proofs.«170613_g2000106544280038_pallasbulk_1245_11_alg».proof.Proof.Gen.ReferenceIdeal
import proofs.«170613_g2000106544280038_pallasbulk_1245_11_alg».proof.Proof.Gen.ReferenceIdeal.Skeleton
import proofs.«170613_g2000106544280038_pallasbulk_1245_11_alg».proof.Proof.Gen.ReferenceIdeal.Launch
import proofs.«170613_g2000106544280038_pallasbulk_1245_11_alg».proof.Proof.Gen.ReferenceIdeal.Points
import proofs.«170613_g2000106544280038_pallasbulk_1245_11_alg».proof.Proof.Gen.ReferenceIdeal.Frame
import proofs.«170613_g2000106544280038_pallasbulk_1245_11_alg».proof.Proof.Gen.Pre_finite_inputs
import proofs.«170613_g2000106544280038_pallasbulk_1245_11_alg».proof.Proof.KRun
import proofs.«170613_g2000106544280038_pallasbulk_1245_11_alg».proof.Proof.RefRun
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference. -/
theorem frame_referenceIdeal : Cert.frame_ReferenceIdeal := fun m ρ _ => Cert.ReferenceIdeal.Gen.frame m ρ

/-- The idealization changed no operation: there is nothing to preserve. -/
theorem preserves : Cert.preserves_Kernel_KernelIdeal := trivial

/-- From arguments that agree, both idealized programs end with the means in the first result and
    the deviations in the second: the same two functions of the arguments. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun r h c => ?_) (Cert.ReferenceIdeal.RefValue.run m' ρ')
  obtain ⟨h1, h2, h3⟩ := h c
  obtain ⟨a0, a1, a2, a3, a4, a5, a6, a7, a8⟩ := hagree c
  refine ⟨?_, ?_, h3⟩
  · rw [h1, a0, a1, a2, a3, a4, a5, a6]
  · rw [h2, a0, a1, a2, a3, a4, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
